-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S256x128 : Shape := ⟨2, ![256, 128]⟩
abbrev S128 : Shape := ⟨1, ![128]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d0 h_S_) main_arg0 main_cst_6
  let main_cst_7 : FVec F S_ .f32 := constant S_ .f32 0x00000000#32
  let main_v20 : FVec F S8192 .f32 := broadcastInDim S8192 ![] bcast_S_S8192 main_cst_7
  let main_v21 : IVec S8192 1 := cmpf .oge main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x8192 .f32) (main_arg1 : FVec F S8192x256 .f32) (main_arg2 : FVec F S256x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S8192x8192 : Shape := ⟨2, ![8192, 8192]⟩
abbrev S8192x256 : Shape := ⟨2, ![8192, 256]⟩
abbrev S256x128 : Shape := ⟨2, ![256, 128]⟩
abbrev S128 : Shape := ⟨1, ![128]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S8192x1 : Shape := ⟨2, ![8192, 1]⟩
abbrev S8192x128 : Shape := ⟨2, ![8192, 128]⟩
abbrev S1024x256 : Shape := ⟨2, ![1024, 256]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 9
  | .vmem => 26
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x128, .f32⟩
  | .hbm, ⟨3, _⟩ => ⟨S128, .f32⟩
  | .hbm, ⟨4, _⟩ => ⟨S1x8192, .f32⟩
  | .hbm, ⟨5, _⟩ => ⟨S8192x1, .f32⟩
  | .hbm, ⟨6, _⟩ => ⟨S8192x128, .f32⟩
  | .hbm, ⟨7, _⟩ => ⟨S1x128, .f32⟩
  | .hbm, ⟨8, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x256, .f32⟩
  | .local _ .vmem, ⟨6, _⟩ => ⟨S1024x256, .f32⟩
  | .local _ .vmem, ⟨7, _⟩ => ⟨S256x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_11 : BitVec 32 := 0#32
  let v17 : BitVec 1 := Scalar.cmpi .ne v16 c0_i32_11
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  transposes_S1x8192_S8192x1_1_0 : S1x8192.Transposes [1, 0] S8192x1
  inb_S1024x256_S1024x256_0_0 : ∀ a, (![0, 0] : Fin 2 → Nat) a + S1024x256.size a ≤ S1024x256.size a
  h_S1024x256 : 0 < S1024x256.numel
  inb_S256x128_S256x128_0_0 : ∀ a, (![0, 0] : Fin 2 → Nat) a + S256x128.size a ≤ S256x128.size a
  h_S256x128 : 0 < S256x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S256x128 : Shape := ⟨2, ![256, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x128, .f32⟩
  | .hbm, ⟨3, _⟩ => ⟨S128, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x8192, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x128, .f32⟩
  | .hbm, ⟨24, _⟩ => ⟨S8192x128, .f32⟩
  | .hbm, ⟨25, _⟩ => ⟨S1x128, .f32⟩
  | .hbm, ⟨26, _⟩ => ⟨S8192x128, .f32⟩
  | .hbm, ⟨27, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  transposes_S8192x8192_S8192x8192_1_0 : S8192x8192.Transposes [1, 0] S8192x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Kernel_Region0Runs.lean ====
/-
  The first kernel region (the column sums): what its three control cases share. The grid walks the column blocks
  (outer) and, for each, the eight row blocks (inner); a one-row accumulator kept between points is reset at the first
  row block, added to at every row block, and at the last row block its square root is stored into the output block.
-/
import proofs.«176108_j55224689492023_2_alg».proof.Proof.Gen.Kernel.Launch
import proofs.«176108_j55224689492023_2_alg».proof.Proof.Gen.Kernel.Skeleton
import proofs.«176108_j55224689492023_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first row block" (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last row block" (the square root is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

abbrev VO0_1 : View sig .tc .vmem S1x1024 .f32 := (Memref.whole cc0_stg1_0 : Memref sig .tc .vmem S1x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The accumulator: a scoped buffer of the kernel's own. -/
abbrev scM0_0 : Memref sig .tc .vmem S1x1024 .f32 := Memref.whole cc0_scratch0
abbrev VS0_0 : View sig .tc .vmem S1x1024 .f32 := scM0_0.view

/-- Every other scoped buffer of the core (the other regions' staging buffers and accumulator), at some contents. -/
abbrev others0 (c : Dev nD) : sProp 𝕄 :=
  Pipeline.scopedRestBut (Ix := Unit) (Name := ℕ) (U := UR sig nD τ) (Lvl := ℕ) (Val := Elt F) spec0 c [cc0_scratch0]

/-- What the region's invariant holds before the first point: the accumulator at anything, the other scoped buffers, the
    generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [Idealize.SL.BI.bigSepL_singleton, scM0_0, owns_whole]; try rfl

end Cert.Kernel.Hand

end
-- ==== Proof.Kernel_Region0RunA.lean ====
/- The first region's body at a first row block: the accumulator is reset, then the block's column sums are added. -/
import proofs.«176108_j55224689492023_2_alg».proof.Proof.Kernel_Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S1024x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel_Region0RunB.lean ====
/- The first region's body at a middle row block: the block's column sums are added to the accumulator. -/
import proofs.«176108_j55224689492023_2_alg».proof.Proof.Kernel_Region0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S1024x1024 .f32) (xs0 : Vec F S1x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel_Region0RunC.lean ====
/- The first region's body at a last row block: the block's column sums are added, and the square root of the
   accumulator is stored into the output block. -/
import proofs.«176108_j55224689492023_2_alg».proof.Proof.Kernel_Region0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S1024x1024 .f32) (xs0 : Vec F S1x1024 .f32) :
    Σ' (L1 : List (View.Piece (Elt F) S1x1024 .f32)), { LS0 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.Kernel_Region0.lean ====
/-
  The first kernel region (the column sums): what the output block and the accumulator hold after each grid point, the
  region's proof data, and the body obligation at every point, by the three control cases.
-/
import proofs.«176108_j55224689492023_2_alg».proof.Proof.Kernel_Region0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) : Vec F S1x1024 .f32 :=
  VO0_1.read (Elt F) (VO0_1.writes (Elt F) VO0_1.junk (kernelRun0_A c i arg2 harg2 arg3 harg3 arg4 harg4 hc0 hc1 x0).1)
theorem scover0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) (y : S1x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1024.size (by sl_kernel_rfl) y
def sout0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) : Vec F S1x1024 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) : Vec F S1x1024 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) (y : S1x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1024.size (by sl_kernel_rfl) y
def sout0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) : Vec F S1x1024 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) (y : S1x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1024.size (by sl_kernel_rfl) y
def out0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) : Vec F S1x1024 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) (y : S1x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1024.size (by sl_kernel_rfl) y
def sout0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) : Vec F S1x1024 .f32 :=
  VS0_0.read (Elt F) (VS0_0.writes (Elt F) VS0_0.junk (kernelRun0_C c i arg2 harg2 arg3 harg3 arg4 harg4 hc0 hc1 x0 xs0).2.1)

/-! ## The accumulation, point by point -/

/-- After the body at position `n`: (the output block's buffer, the accumulator). -/
def outsAt0 (c : Dev nD) : (n : ℕ) → n < cfg0.N → Vec F S1x1024 .f32 × Vec F S1x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun hz => h0 (by rw [hz])
    by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.Kernel_Region1.lean ====
/-
  The second kernel region (the feature transform): for each block of 1024 rows, the product of the feature rows with the
  weight matrix, each row then scaled by that row's entry of the column vector s. One store of the whole output block at
  every grid point; no state is kept between points.
-/
import proofs.«176108_j55224689492023_2_alg».proof.Proof.Gen.Kernel.Launch
import proofs.«176108_j55224689492023_2_alg».proof.Proof.Gen.Kernel.Skeleton
import proofs.«176108_j55224689492023_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, read off the arrays as the region finds them -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

abbrev r1_o : Rect S1024x128 := Rect.unit (s := S1024x128) ![0, 0] S1024x128.size inb_S1024x128_S1024x128_0_0
abbrev r1_f : Rect S1024x256 := Rect.unit (s := S1024x256) ![0, 0] S1024x256.size inb_S1024x256_S1024x256_0_0
abbrev r1_w : Rect S256x128 := Rect.unit (s := S256x128) ![0, 0] S256x128.size inb_S256x128_S256x128_0_0
abbrev r1_s : Rect S1024x1 := Rect.unit (s := S1024x1) ![0, 0] S1024x1.size inb_S1024x1_S1024x1_0_0

/-- The output block after the body: the scaled product of the three input blocks, stored whole. -/
def out1_3 (x0 : Vec F S1024x256 .f32) (x1 : Vec F S256x128 .f32) (x2 : Vec F S1024x1 .f32) : Vec F S1024x128 .f32 :=
  View.canon [⟨r1_o, k1_pay1 (View.ld x0 r1_f) (View.ld x1 r1_w) (View.ld x2 r1_s)⟩]

theorem cover1_3 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

/-! ## The body's triple -/

set_option maxHeartbeats 1000000 in
theorem sound_kernel1 (c : Dev nD) (E : Set ℕ) (i : grid1.Coords)
    (arg1 : Memref sig .tc .vmem S1024x256 .f32) (harg1 : arg1.IsWhole) (arg2 : Memref sig .tc .vmem S256x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x256 .f32) (x1 : Vec F S256x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fw_kernel i arg1 harg1 arg2 harg2 arg3 harg3 arg4 harg4) K := by
  simp only [cc1__fw_kernel_eq_skeleton]; unfold cc1__fw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel_Region2Runs.lean ====
/-
  The third kernel region (the aggregation): what its three control cases share. The grid walks the output row blocks
  (outer) and, for each, the eight column blocks of the adjacency matrix (inner); an accumulator block kept between
  points is reset at the first column block, receives at every column block the two products of that point's adjacency
  blocks (one as it stands, one contracted on its rows) with the scaled feature block, and at the last column block the
  row's own scaled features are added, the rows are scaled, the bias is added, and the result is stored.
-/
import proofs.«176108_j55224689492023_2_alg».proof.Proof.Gen.Kernel.Launch
import proofs.«176108_j55224689492023_2_alg».proof.Proof.Gen.Kernel.Skeleton
import proofs.«176108_j55224689492023_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The memrefs the body is called with -/

abbrev VO2_6 : View sig .tc .vmem S1024x128 .f32 := (Memref.whole cc2_stg6_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev scM2_0 : Memref sig .tc .vmem S1024x128 .f32 := Memref.whole cc2_scratch0
abbrev VS2_0 : View sig .tc .vmem S1024x128 .f32 := scM2_0.view

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [Idealize.SL.BI.bigSepL_singleton, scM2_0, owns_whole]; try rfl

end Cert.Kernel.Hand

end
-- ==== Proof.Kernel_Region2RunA.lean ====
/- The third region's body, case A. -/
import proofs.«176108_j55224689492023_2_alg».proof.Proof.Kernel_Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨[], ?_, fun xi6 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.Kernel_Region2RunB.lean ====
/- The third region's body, case B. -/
import proofs.«176108_j55224689492023_2_alg».proof.Proof.Kernel_Region2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨[], ?_, fun xi6 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.Kernel_Region2RunC.lean ====
/- The third region's body, case C. -/
import proofs.«176108_j55224689492023_2_alg».proof.Proof.Kernel_Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.Kernel_Region2.lean ====
/-
  The third kernel region (the aggregation): what the output block and the accumulator hold after each grid point, the
  region's proof data (the adjacency matrix and the scaled features are each read through two windows, at half shares),
  and the body obligation at every point, by the three control cases.
-/
import proofs.«176108_j55224689492023_2_alg».proof.Proof.Kernel_Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out2_A_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)
theorem scover2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y
def sout2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

def out2_B_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)
theorem scover2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y
def sout2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

theorem cover2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y
def out2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)
theorem scover2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y
def sout2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## The accumulation, point by point -/

def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 8 = 0 then
      if h1 : (n + 1) % 8 = 7 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 8 = 7 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The proof data -/

/-- The adjacency matrix and the scaled features are each handed to the region through two windows: each of the two
    holds its array at one half of the full share. -/
def q2 : Fin cfg2.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · by_cases h1 : t.val % 8 = 7
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      have hpre : (dat2 V c).Φ t.castSucc ⊢ iprop(iprop((∃ d, owns (c : Thread nD τ) scM2_0 fullShare d) ∗ others2 c) ∗ (∃ r, prngReg c r)) := by
        by_cases hz : t.val = 0
        · rw [PhiS2_castSucc V c t, PhiS2_zero V c _ _ hz, PhiA2_eq]
        · rw [PhiS2_castSucc V c t, PhiS2_pos V c _ _ hz]
          iintro ⟨⟨HS0, Hoth⟩, Hg⟩
          isplitl [HS0 Hoth]
          · isplitl [HS0]; · iexists _; iexact HS0
            iexact Hoth
          iexact Hg
      refine (sep_mono hpre .rfl).trans ?_
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 8 = 7
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.Kernel_Run01.lean ====
/-
  The whole program as a run: the three kernel regions and the two host steps between them, each entered from the buffer
  contents the item before it left. The contents at every boundary are named (the column-scale vector after the first
  region, its transpose, the scaled features after the second, the bias as a row, the result after the third); the run
  ends with every unscoped buffer at the last boundary's contents, from which both the frame (the arguments are
  unchanged) and the value of the result buffer are read.
-/
import proofs.«176108_j55224689492023_2_alg».proof.Proof.Kernel_Region0
import proofs.«176108_j55224689492023_2_alg».proof.Proof.Kernel_Region1
import proofs.«176108_j55224689492023_2_alg».proof.Proof.Kernel_Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => m (c, b)
abbrev V0r : (c : Dev nD) → (b : Ref sig .tc) → Buf (Elt F) ((c : Thread nD τ).loc b) := fun c b => W0 m c b
/-- After the first region: the column-scale row written, everything else as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the transpose (the second region's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region: the scaled features written. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-- After the reshape of the bias (the third region's entry). -/
abbrev W4 : Dev nD → Valuation τ sig (Elt F) := fun c => StableHlo.after hostOps2 (W3 m c)
abbrev V4r : (c : Dev nD) → (b : Ref sig .tc) → Buf (Elt F) ((c : Thread nD τ).loc b) := fun c b => W4 m c b
/-- After the third region: the result written, everything else as entered (its inputs are only read). -/
def W5 (c : Dev nD) : Valuation τ sig (Elt F) :=
  Function.update (W4 m c) (Proc.devRef .tc main_v4) ((dat2 (V4r m) c).arrAt 6 cfg2.N)
theorem W5_v4 (c : Dev nD) : W5 m c (Proc.devRef .tc main_v4) = (dat2 (V4r m) c).arrAt 6 cfg2.N := by
  unfold W5; exact Function.update_self ..
theorem W5_of_ne (c : Dev nD) (b : Ref sig .tc) (hb : b ≠ main_v4) :
    W5 m c (Proc.devRef .tc b) = W4 m c (Proc.devRef .tc b) := by
  unfold W5; exact Function.update_of_ne (StableHlo.devRef_ne_of_ne hb) ..
abbrev V5r : (c : Dev nD) → (b : Ref sig .tc) → Buf (Elt F) ((c : Thread nD τ).loc b) := fun c b => W5 m c b

/-! ## The proof data family and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
  | ⟨2, _⟩ => fun c => dat2 (V4r m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The first two regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0r m) c)
    unfold Pipeline.ΦA
    iintro ⟨Hp, -, Hr⟩
    isplitl [Hr]; · iexact Hr
    iexact Hp
  hout c := by
    rw [Pipeline.ownSems0_none]
    refine (hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel_Run.lean ====
/-
  The third region as a segment of the run, and the run of the whole program. The third region reads the adjacency
  matrix through two windows and the scaled features through two windows: on entry each of these two buffers, held whole,
  is split into two half shares, one per window; on exit the halves (the buffers unchanged) are joined again.
-/
import proofs.«176108_j55224689492023_2_alg».proof.Proof.Kernel_Run01

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The third region's arrays: five buffers behind seven windows -/

theorem arrBufs2_eq (c : Dev nD) (Vr : (b : Ref sig .tc) → Buf (Elt F) ((c : Thread nD τ).loc b)) :
    (Pipeline.arrBufs (Ix := Unit) (Name := ℕ) (U := UR sig nD τ) (Lvl := ℕ) spec2 c Vr : sProp 𝕄)
      = iprop((((c : Thread nD τ).loc main_arg0) ↦{fullShare} Vr main_arg0) ∗ (((c : Thread nD τ).loc main_v2) ↦{fullShare} Vr main_v2)
          ∗ (((c : Thread nD τ).loc main_v1) ↦{fullShare} Vr main_v1) ∗ (((c : Thread nD τ).loc main_v3) ↦{fullShare} Vr main_v3)
          ∗ (((c : Thread nD τ).loc main_v4) ↦{fullShare} Vr main_v4)) := by
  unfold Pipeline.arrBufs
  exact bigSep_eq_bigSepL_of_eq [main_arg0, main_v2, main_v1, main_v3, main_v4] (by decide) (by decide) _

theorem arrays2_eq (V : (c : Dev nD) → (b : Ref sig .tc) → Buf (Elt F) ((c : Thread nD τ).loc b)) (c : Dev nD)
    (Fa : (w : Fin cfg2.W) → Buf (Elt F) ((cfg2.win w).arr.view.loc (c : Thread nD τ))) :
    ((dat2 V c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v2) ↦{fullShare.left} Fa 2) ∗ (((c : Thread nD τ).loc main_v2) ↦{fullShare.right} Fa 3)
          ∗ (((c : Thread nD τ).loc main_v1) ↦{fullShare} Fa 4) ∗ (((c : Thread nD τ).loc main_v3) ↦{fullShare} Fa 5)
          ∗ (((c : Thread nD τ).loc main_v4) ↦{fullShare} Fa 6)) := by
  unfold Dat.arrays
  rw [bigSep_W2]
  have h0 : (cfg2.win 0).arr.IsWhole := arr_whole2 0
  have h1 : (cfg2.win 1).arr.IsWhole := arr_whole2 1
  have h2 : (cfg2.win 2).arr.IsWhole := arr_whole2 2
  have h3 : (cfg2.win 3).arr.IsWhole := arr_whole2 3
  have h4 : (cfg2.win 4).arr.IsWhole := arr_whole2 4
  have h5 : (cfg2.win 5).arr.IsWhole := arr_whole2 5
  have h6 : (cfg2.win 6).arr.IsWhole := arr_whole2 6
  rw [h0.set_eq_univ, h2.set_eq_univ, h4.set_eq_univ, h5.set_eq_univ, h6.set_eq_univ]
  rfl

set_option backward.isDefEq.respectTransparency.types false in
/-- ENTRY: the unscoped buffers held whole give the region's arrays at its windows' shares, and the rest. -/
theorem entry2 (c : Dev nD) :
    (StableHlo.held (c : Thread nD τ) (Pipeline.ucRefs τ sig) (W4 m c) : sProp 𝕄)
      ⊢ iprop((pdats m 2 c).arrays ((pdats m 2 c).arrAt · 0)
          ∗ Pipeline.unscopedRest (Ix := Unit) (Name := ℕ) (U := UR sig nD τ) (Lvl := ℕ) spec2 c (V4r m c)) := by
  rw [← Pipeline.unscopedBufs_held (Ix := Unit) (Name := ℕ) (U := UR sig nD τ) (Lvl := ℕ) c (W4 m c)]
  rw [Pipeline.unscopedBufs_split₀ (Pipeline.pin (pcfgs (F := F)) adm) 2 winFacts₀2.arr_unscoped c (V4r m c)]
  refine BIClass.sep_mono ?_ .rfl
  refine (BIBase.Entails.of_eq (arrBufs2_eq c (V4r m c))).trans ?_
  refine BIBase.Entails.trans ?_ (BIBase.Entails.of_eq (arrays2_eq (V4r m) c ((dat2 (V4r m) c).arrAt · 0)).symm)
  iintro ⟨Ha0, Hv2, Hv1, Hv3, Hv4⟩
  ihave Ha := (pointsTo_share (PosShare.mem_left_op_right fullShare)).1 $$ Ha0
  icases Ha with ⟨Ha0l, Ha0r⟩
  ihave Hb := (pointsTo_share (PosShare.mem_left_op_right fullShare)).1 $$ Hv2
  icases Hb with ⟨Hv2l, Hv2r⟩
  isplitl [Ha0l]; · iexact Ha0l
  isplitl [Ha0r]; · iexact Ha0r
  isplitl [Hv2l]; · iexact Hv2l
  isplitl [Hv2r]; · iexact Hv2r
  isplitl [Hv1]; · iexact Hv1
  isplitl [Hv3]; · iexact Hv3
  iexact Hv4

set_option backward.isDefEq.respectTransparency.types false in
/-- EXIT: the arrays at their final contents (the inputs as entered, the result written) and the rest are the unscoped
    buffers at the next boundary's contents. -/
theorem exit2 (c : Dev nD) :
    iprop((pdats m 2 c).arrays ((pdats m 2 c).arrAt · cfg2.N)
          ∗ Pipeline.unscopedRest (Ix := Unit) (Name := ℕ) (U := UR sig nD τ) (Lvl := ℕ) spec2 c (V4r m c))
      ⊢ (StableHlo.held (c : Thread nD τ) (Pipeline.ucRefs τ sig) (W5 m c) : sProp 𝕄) := by
  rw [← Pipeline.unscopedBufs_held (Ix := Unit) (Name := ℕ) (U := UR sig nD τ) (Lvl := ℕ) c (W5 m c)]
  rw [Pipeline.unscopedBufs_split₀ (Pipeline.pin (pcfgs (F := F)) adm) 2 winFacts₀2.arr_unscoped c (V5r m c)]
  refine BIClass.sep_mono ?_ ?_
  · refine BIBase.Entails.trans ?_ (BIBase.Entails.of_eq (arrBufs2_eq c (V5r m c)).symm)
    refine (BIBase.Entails.of_eq (arrays2_eq (V4r m) c ((dat2 (V4r m) c).arrAt · cfg2.N))).trans ?_
    have e0 : (dat2 (V4r m) c).arrAt 0 cfg2.N = V5r m c main_arg0 :=
      ((dat2 (V4r m) c).arrAt_in 0 rfl _).trans ((A_eq2 (V4r m) c 0).trans (W5_of_ne m c main_arg0 (by decide)).symm)
    have e1 : (dat2 (V4r m) c).arrAt 1 cfg2.N = V5r m c main_arg0 :=
      ((dat2 (V4r m) c).arrAt_in 1 rfl _).trans ((A_eq2 (V4r m) c 1).trans (W5_of_ne m c main_arg0 (by decide)).symm)
    have e2 : (dat2 (V4r m) c).arrAt 2 cfg2.N = V5r m c main_v2 :=
      ((dat2 (V4r m) c).arrAt_in 2 rfl _).trans ((A_eq2 (V4r m) c 2).trans (W5_of_ne m c main_v2 (by decide)).symm)
    have e3 : (dat2 (V4r m) c).arrAt 3 cfg2.N = V5r m c main_v2 :=
      ((dat2 (V4r m) c).arrAt_in 3 rfl _).trans ((A_eq2 (V4r m) c 3).trans (W5_of_ne m c main_v2 (by decide)).symm)
    have e4 : (dat2 (V4r m) c).arrAt 4 cfg2.N = V5r m c main_v1 :=
      ((dat2 (V4r m) c).arrAt_in 4 rfl _).trans ((A_eq2 (V4r m) c 4).trans (W5_of_ne m c main_v1 (by decide)).symm)
    have e5 : (dat2 (V4r m) c).arrAt 5 cfg2.N = V5r m c main_v3 :=
      ((dat2 (V4r m) c).arrAt_in 5 rfl _).trans ((A_eq2 (V4r m) c 5).trans (W5_of_ne m c main_v3 (by decide)).symm)
    have e6 : (dat2 (V4r m) c).arrAt 6 cfg2.N = V5r m c main_v4 := (W5_v4 m c).symm
    rw [e0, e1, e2, e3, e4, e5, e6]
    iintro ⟨Ha0l, Ha0r, Hv2l, Hv2r, Hv1, Hv3, Hv4⟩
    isplitl [Ha0l Ha0r]
    · iapply (pointsTo_share (PosShare.mem_left_op_right fullShare)).2
      isplitl [Ha0l]; · iexact Ha0l
      iexact Ha0r
    isplitl [Hv2l Hv2r]
    · iapply (pointsTo_share (PosShare.mem_left_op_right fullShare)).2
      isplitl [Hv2l]; · iexact Hv2l
      iexact Hv2r
    isplitl [Hv1]; · iexact Hv1
    isplitl [Hv3]; · iexact Hv3
    iexact Hv4
  · rw [unscopedRest2_eq c (V4r m c)]
    show _ ⊢ (Pipeline.unscopedRest (Ix := Unit) (Name := ℕ) (U := UR sig nD τ) (Lvl := ℕ) spec2 c (V5r m c) : sProp 𝕄)
    rw [unscopedRest2_eq c (V5r m c)]
    dsimp only [V5r]
    rw [W5_of_ne m c main_arg1 (by decide), W5_of_ne m c main_arg2 (by decide), W5_of_ne m c main_arg3 (by decide), W5_of_ne m c main_v0 (by decide)]

/-! ## The third region as a segment -/

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4r m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4r m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4r m) c)
    unfold Pipeline.ΦA
    iintro ⟨Hp, -, Hr⟩
    isplitl [Hr]; · iexact Hr
    iexact Hp
  hout c := by
    rw [Pipeline.ownSems0_none]
    refine (hout2 (V4r m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m c); isplitl [Ha] <;> iassumption
      iexact HY
    unfold Pipeline.Dat.owesAt Pipeline.owesWithin
    icases HO with ⟨%W, -, HO⟩; iexists W; iexact HO

/-! ## The program as segments, and its run -/

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .host (hseg hostOps2 hostOps2_sub hostOps2_fresh' (W3 m)),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Kernel_Args.lean ====
/-
  The argument buffers through the run: no host step and no region writes an argument, so each boundary's contents at an
  argument are the launch contents.
-/
import proofs.«176108_j55224689492023_2_alg».proof.Proof.Kernel_Run
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

theorem hostOps1_writes' : (hostOps1 : List (HloOp τ sig (Elt F))).Forall fun op => op.writes ⊆ (([main_v1] : List (Ref sig .tc)).map (Proc.devRef (τ := τ) .tc)).toFinset := by
  simp only [List.Forall]; exact (by simp only [StableHlo.unary_writes, Finset.singleton_subset_iff, List.mem_toFinset]; exact List.mem_map_of_mem (by decide))
theorem hostOps2_writes' : (hostOps2 : List (HloOp τ sig (Elt F))).Forall fun op => op.writes ⊆ (([main_v3] : List (Ref sig .tc)).map (Proc.devRef (τ := τ) .tc)).toFinset := by
  simp only [List.Forall]; exact (by simp only [StableHlo.reshape_writes, Finset.singleton_subset_iff, List.mem_toFinset]; exact List.mem_map_of_mem (by decide))

theorem W2_of (c : Dev nD) (r : Ref sig .tc) (h : r ∉ ([main_v1] : List (Ref sig .tc))) : W2 m c r = W1 m c r :=
  StableHlo.after_of_writes_sub hostOps1 _ hostOps1_writes' h
theorem W4_of (c : Dev nD) (r : Ref sig .tc) (h : r ∉ ([main_v3] : List (Ref sig .tc))) : W4 m c r = W3 m c r :=
  StableHlo.after_of_writes_sub hostOps2 _ hostOps2_writes' h

theorem V0r_arg0 (c : Dev nD) : V0r m c main_arg0 = m ((c : Thread nD τ).loc main_arg0) := rfl
theorem V2r_arg1 (c : Dev nD) : V2r m c main_arg1 = m ((c : Thread nD τ).loc main_arg1) :=
  (W2_of m c main_arg1 (by decide)).trans ((W1_of_ne m c main_arg1 (by decide)).trans rfl)
theorem V2r_arg2 (c : Dev nD) : V2r m c main_arg2 = m ((c : Thread nD τ).loc main_arg2) :=
  (W2_of m c main_arg2 (by decide)).trans ((W1_of_ne m c main_arg2 (by decide)).trans rfl)
theorem W1_arg0 (c : Dev nD) : W1 m c (Proc.devRef .tc main_arg0) = m ((c : Thread nD τ).loc main_arg0) :=
  (W1_arr m c 0).trans (((dat0 (V0r m) c).arrAt_in 0 rfl _).trans (A_eq0 (V0r m) c 0))
theorem V4r_arg0 (c : Dev nD) : V4r m c main_arg0 = m ((c : Thread nD τ).loc main_arg0) :=
  (W4_of m c main_arg0 (by decide)).trans ((W3_of_ne m c main_arg0 (by decide)).trans ((W2_of m c main_arg0 (by decide)).trans (W1_arg0 m c)))
theorem W3_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))

theorem W5_arg0 (c : Dev nD) : W5 m c (Proc.devRef .tc main_arg0) = m ((c : Thread nD τ).loc main_arg0) :=
  (W5_of_ne m c main_arg0 (by decide)).trans (V4r_arg0 m c)
theorem W5_arg1 (c : Dev nD) : W5 m c (Proc.devRef .tc main_arg1) = m ((c : Thread nD τ).loc main_arg1) :=
  (W5_of_ne m c main_arg1 (by decide)).trans ((W4_of m c main_arg1 (by decide)).trans
    ((W3_arr m c 0).trans (((dat1 (V2r m) c).arrAt_in 0 rfl _).trans ((A_eq1 (V2r m) c 0).trans (V2r_arg1 m c)))))
theorem W5_arg2 (c : Dev nD) : W5 m c (Proc.devRef .tc main_arg2) = m ((c : Thread nD τ).loc main_arg2) :=
  (W5_of_ne m c main_arg2 (by decide)).trans ((W4_of m c main_arg2 (by decide)).trans
    ((W3_arr m c 1).trans (((dat1 (V2r m) c).arrAt_in 1 rfl _).trans ((A_eq1 (V2r m) c 1).trans (V2r_arg2 m c)))))
theorem W5_arg3 (c : Dev nD) : W5 m c (Proc.devRef .tc main_arg3) = m ((c : Thread nD τ).loc main_arg3) :=
  (W5_of_ne m c main_arg3 (by decide)).trans ((W4_of m c main_arg3 (by decide)).trans (W3_arg3 m c))

/-- THE FRAME: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_arg0 m c), (h c _ (mem_uc main_arg1 (by decide))).trans (W5_arg1 m c),
      (h c _ (mem_uc main_arg2 (by decide))).trans (W5_arg2 m c), (h c _ (mem_uc main_arg3 (by decide))).trans (W5_arg3 m c)⟩)
    (run_all m ρ)

end Cert.Kernel.Hand

end
-- ==== Proof.KernelIdeal_Region0Runs.lean ====
/-
  The first kernel region (the column sums): what its three control cases share. The grid walks the column blocks
  (outer) and, for each, the eight row blocks (inner); a one-row accumulator kept between points is reset at the first
  row block, added to at every row block, and at the last row block its square root is stored into the output block.
-/
import proofs.«176108_j55224689492023_2_alg».proof.Proof.Gen.KernelIdeal.Launch
import proofs.«176108_j55224689492023_2_alg».proof.Proof.Gen.KernelIdeal.Skeleton
import proofs.«176108_j55224689492023_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first row block" (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last row block" (the square root is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

abbrev VO0_1 : View sig .tc .vmem S1x1024 .f32 := (Memref.whole cc0_stg1_0 : Memref sig .tc .vmem S1x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The accumulator: a scoped buffer of the kernel's own. -/
abbrev scM0_0 : Memref sig .tc .vmem S1x1024 .f32 := Memref.whole cc0_scratch0
abbrev VS0_0 : View sig .tc .vmem S1x1024 .f32 := scM0_0.view

/-- Every other scoped buffer of the core (the other regions' staging buffers and accumulator), at some contents. -/
abbrev others0 (c : Dev nD) : sProp 𝕄 :=
  Pipeline.scopedRestBut (Ix := Unit) (Name := ℕ) (U := UR sig nD τ) (Lvl := ℕ) (Val := Elt F) spec0 c [cc0_scratch0]

/-- What the region's invariant holds before the first point: the accumulator at anything, the other scoped buffers, the
    generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [Idealize.SL.BI.bigSepL_singleton, scM0_0, owns_whole]; try rfl

end Cert.KernelIdeal.Hand

end
-- ==== Proof.KernelIdeal_Region0RunA.lean ====
/- The first region's body at a first row block: the accumulator is reset, then the block's column sums are added. -/
import proofs.«176108_j55224689492023_2_alg».proof.Proof.KernelIdeal_Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i)
    (x0 : Vec F S1024x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal_Region0RunB.lean ====
/- The first region's body at a middle row block: the block's column sums are added to the accumulator. -/
import proofs.«176108_j55224689492023_2_alg».proof.Proof.KernelIdeal_Region0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i)
    (x0 : Vec F S1024x1024 .f32) (xs0 : Vec F S1x1024 .f32) :
    Σ' (L1 : List (View.Piece (Elt F) S1x1024 .f32)), { LS0 : List (View.Piece (Elt F) S1x1024 .f32) //
      ∀ (xi1 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨[], ?_, fun xi1 E K => ?run⟩
  case run =>
    simp only [cc0__colsum_kernel_eq_skeleton]; unfold cc0__colsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal_Region0RunC.lean ====
/- The first region's body at a last row block: the block's column sums are added, and the square root of the
   accumulator is stored into the output block. -/
import proofs.«176108_j55224689492023_2_alg».proof.Proof.KernelIdeal_Region0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i)
    (x0 : Vec F S1024x1024 .f32) (xs0 : Vec F S1x1024 .f32) :
    Σ' (L1 : List (View.Piece (Elt F) S1x1024 .f32)), { LS0 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KernelIdeal_Region0.lean ====
/-
  The first kernel region (the column sums): what the output block and the accumulator hold after each grid point, the
  region's proof data, and the body obligation at every point, by the three control cases.
-/
import proofs.«176108_j55224689492023_2_alg».proof.Proof.KernelIdeal_Region0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) : Vec F S1x1024 .f32 :=
  VO0_1.read (Elt F) (VO0_1.writes (Elt F) VO0_1.junk (kernelRun0_A c i arg2 harg2 arg3 harg3 arg4 harg4 hc0 hc1 x0).1)
theorem scover0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) (y : S1x1024.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x1024.size (by sl_kernel_rfl) y
def sout0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) : Vec F S1x1024 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) : Vec F S1x1024 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) (y : S1x1024.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x1024.size (by sl_kernel_rfl) y
def sout0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) : Vec F S1x1024 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) (y : S1x1024.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1024.size (by sl_kernel_rfl) y
def out0_C_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) : Vec F S1x1024 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) (y : S1x1024.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x1024.size (by sl_kernel_rfl) y
def sout0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) : Vec F S1x1024 .f32 :=
  VS0_0.read (Elt F) (VS0_0.writes (Elt F) VS0_0.junk (kernelRun0_C c i arg2 harg2 arg3 harg3 arg4 harg4 hc0 hc1 x0 xs0).2.1)

/-! ## The accumulation, point by point -/

/-- After the body at position `n`: (the output block's buffer, the accumulator). -/
def outsAt0 (c : Dev nD) : (n : ℕ) → n < cfg0.N → Vec F S1x1024 .f32 × Vec F S1x1024 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun hz => h0 (by rw [hz])
    by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KernelIdeal_Region1.lean ====
/-
  The second kernel region (the feature transform): for each block of 1024 rows, the product of the feature rows with the
  weight matrix, each row then scaled by that row's entry of the column vector s. One store of the whole output block at
  every grid point; no state is kept between points.
-/
import proofs.«176108_j55224689492023_2_alg».proof.Proof.Gen.KernelIdeal.Launch
import proofs.«176108_j55224689492023_2_alg».proof.Proof.Gen.KernelIdeal.Skeleton
import proofs.«176108_j55224689492023_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, read off the arrays as the region finds them -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

abbrev r1_o : Rect S1024x128 := Rect.unit (s := S1024x128) ![0, 0] S1024x128.size inb_S1024x128_S1024x128_0_0
abbrev r1_f : Rect S1024x256 := Rect.unit (s := S1024x256) ![0, 0] S1024x256.size inb_S1024x256_S1024x256_0_0
abbrev r1_w : Rect S256x128 := Rect.unit (s := S256x128) ![0, 0] S256x128.size inb_S256x128_S256x128_0_0
abbrev r1_s : Rect S1024x1 := Rect.unit (s := S1024x1) ![0, 0] S1024x1.size inb_S1024x1_S1024x1_0_0

/-- The output block after the body: the scaled product of the three input blocks, stored whole. -/
def out1_3 (x0 : Vec F S1024x256 .f32) (x1 : Vec F S256x128 .f32) (x2 : Vec F S1024x1 .f32) : Vec F S1024x128 .f32 :=
  View.canon [⟨r1_o, k1_pay1 (View.ld x0 r1_f) (View.ld x1 r1_w) (View.ld x2 r1_s)⟩]

theorem cover1_3 (p0 : Vec F S1024x128 .f32) (y : S1024x128.Idx) :
    ∃ pc ∈ ([⟨r1_o, p0⟩] : List (View.Piece (Elt F) S1024x128 .f32)), y ∈ pc.1.set :=
  View.cover_of_tiled [⟨r1_o, p0⟩] S1024x128.size (by rfl) y

/-! ## The body's triple -/

set_option maxHeartbeats 1000000 in
theorem sound_kernel1 (c : Dev nD) (E : Set ℕ) (i : grid1.Coords)
    (arg1 : Memref sig .tc .vmem S1024x256 .f32) (harg1 : arg1.IsWhole) (arg2 : Memref sig .tc .vmem S256x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x256 .f32) (x1 : Vec F S256x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fw_kernel i arg1 harg1 arg2 harg2 arg3 harg3 arg4 harg4) K := by
  simp only [cc1__fw_kernel_eq_skeleton]; unfold cc1__fw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal_Region2Runs.lean ====
/-
  The third kernel region (the aggregation): what its three control cases share. The grid walks the output row blocks
  (outer) and, for each, the eight column blocks of the adjacency matrix (inner); an accumulator block kept between
  points is reset at the first column block, receives at every column block the two products of that point's adjacency
  blocks (one as it stands, one contracted on its rows) with the scaled feature block, and at the last column block the
  row's own scaled features are added, the rows are scaled, the bias is added, and the result is stored.
-/
import proofs.«176108_j55224689492023_2_alg».proof.Proof.Gen.KernelIdeal.Launch
import proofs.«176108_j55224689492023_2_alg».proof.Proof.Gen.KernelIdeal.Skeleton
import proofs.«176108_j55224689492023_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The memrefs the body is called with -/

abbrev VO2_6 : View sig .tc .vmem S1024x128 .f32 := (Memref.whole cc2_stg6_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
abbrev scM2_0 : Memref sig .tc .vmem S1024x128 .f32 := Memref.whole cc2_scratch0
abbrev VS2_0 : View sig .tc .vmem S1024x128 .f32 := scM2_0.view

abbrev others2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [Pipeline.scopedRest_split_of_list spec2 c [cc2_scratch0] (by decide) (by decide)]
  simp only [Idealize.SL.BI.bigSepL_singleton, scM2_0, owns_whole]; try rfl

end Cert.KernelIdeal.Hand

end
-- ==== Proof.KernelIdeal_Region2RunA.lean ====
/- The third region's body, case A. -/
import proofs.«176108_j55224689492023_2_alg».proof.Proof.KernelIdeal_Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨[], ?_, fun xi6 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KernelIdeal_Region2RunB.lean ====
/- The third region's body, case B. -/
import proofs.«176108_j55224689492023_2_alg».proof.Proof.KernelIdeal_Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨[], ?_, fun xi6 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KernelIdeal_Region2RunC.lean ====
/- The third region's body, case C. -/
import proofs.«176108_j55224689492023_2_alg».proof.Proof.KernelIdeal_Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KernelIdeal_Region2.lean ====
/-
  The third kernel region (the aggregation): what the output block and the accumulator hold after each grid point, the
  region's proof data (the adjacency matrix and the scaled features are each read through two windows, at half shares),
  and the body obligation at every point, by the three control cases.
-/
import proofs.«176108_j55224689492023_2_alg».proof.Proof.KernelIdeal_Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def out2_A_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)
theorem scover2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y
def sout2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

def out2_B_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)
theorem scover2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y
def sout2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

theorem cover2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y
def out2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)
theorem scover2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y
def sout2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## The accumulation, point by point -/

def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 8 = 0 then
      if h1 : (n + 1) % 8 = 7 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 8 = 7 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The proof data -/

/-- The adjacency matrix and the scaled features are each handed to the region through two windows: each of the two
    holds its array at one half of the full share. -/
def q2 : Fin cfg2.W → PosShare TreeShare
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · by_cases h1 : t.val % 8 = 7
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      have hpre : (dat2 V c).Φ t.castSucc ⊢ iprop(iprop((∃ d, owns (c : Thread nD τ) scM2_0 fullShare d) ∗ others2 c) ∗ (∃ r, prngReg c r)) := by
        by_cases hz : t.val = 0
        · rw [PhiS2_castSucc V c t, PhiS2_zero V c _ _ hz, PhiA2_eq]
        · rw [PhiS2_castSucc V c t, PhiS2_pos V c _ _ hz]
          iintro ⟨⟨HS0, Hoth⟩, Hg⟩
          isplitl [HS0 Hoth]
          · isplitl [HS0]; · iexists _; iexact HS0
            iexact Hoth
          iexact Hg
      refine (sep_mono hpre .rfl).trans ?_
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 8 = 7
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KernelIdeal_Run01.lean ====
/-
  The whole program as a run: the three kernel regions and the two host steps between them, each entered from the buffer
  contents the item before it left. The contents at every boundary are named (the column-scale vector after the first
  region, its transpose, the scaled features after the second, the bias as a row, the result after the third); the run
  ends with every unscoped buffer at the last boundary's contents, from which both the frame (the arguments are
  unchanged) and the value of the result buffer are read.
-/
import proofs.«176108_j55224689492023_2_alg».proof.Proof.KernelIdeal_Region0
import proofs.«176108_j55224689492023_2_alg».proof.Proof.KernelIdeal_Region1
import proofs.«176108_j55224689492023_2_alg».proof.Proof.KernelIdeal_Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first region's entry). -/
abbrev W0 : Dev nD → Valuation τ sig (Elt F) := fun c b => m (c, b)
abbrev V0r : (c : Dev nD) → (b : Ref sig .tc) → Buf (Elt F) ((c : Thread nD τ).loc b) := fun c b => W0 m c b
/-- After the first region: the column-scale row written, everything else as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the transpose (the second region's entry). -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region: the scaled features written. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-- After the reshape of the bias (the third region's entry). -/
abbrev W4 : Dev nD → Valuation τ sig (Elt F) := fun c => StableHlo.after hostOps2 (W3 m c)
abbrev V4r : (c : Dev nD) → (b : Ref sig .tc) → Buf (Elt F) ((c : Thread nD τ).loc b) := fun c b => W4 m c b
/-- After the third region: the result written, everything else as entered (its inputs are only read). -/
def W5 (c : Dev nD) : Valuation τ sig (Elt F) :=
  Function.update (W4 m c) (Proc.devRef .tc main_v4) ((dat2 (V4r m) c).arrAt 6 cfg2.N)
theorem W5_v4 (c : Dev nD) : W5 m c (Proc.devRef .tc main_v4) = (dat2 (V4r m) c).arrAt 6 cfg2.N := by
  unfold W5; exact Function.update_self ..
theorem W5_of_ne (c : Dev nD) (b : Ref sig .tc) (hb : b ≠ main_v4) :
    W5 m c (Proc.devRef .tc b) = W4 m c (Proc.devRef .tc b) := by
  unfold W5; exact Function.update_of_ne (StableHlo.devRef_ne_of_ne hb) ..
abbrev V5r : (c : Dev nD) → (b : Ref sig .tc) → Buf (Elt F) ((c : Thread nD τ).loc b) := fun c b => W5 m c b

/-! ## The proof data family and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
  | ⟨2, _⟩ => fun c => dat2 (V4r m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The first two regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0r m) c)
    unfold Pipeline.ΦA
    iintro ⟨Hp, -, Hr⟩
    isplitl [Hr]; · iexact Hr
    iexact Hp
  hout c := by
    rw [Pipeline.ownSems0_none]
    refine (hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal_Run.lean ====
/-
  The third region as a segment of the run, and the run of the whole program. The third region reads the adjacency
  matrix through two windows and the scaled features through two windows: on entry each of these two buffers, held whole,
  is split into two half shares, one per window; on exit the halves (the buffers unchanged) are joined again.
-/
import proofs.«176108_j55224689492023_2_alg».proof.Proof.KernelIdeal_Run01

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The third region's arrays: five buffers behind seven windows -/

theorem arrBufs2_eq (c : Dev nD) (Vr : (b : Ref sig .tc) → Buf (Elt F) ((c : Thread nD τ).loc b)) :
    (Pipeline.arrBufs (Ix := Unit) (Name := ℕ) (U := UR sig nD τ) (Lvl := ℕ) spec2 c Vr : sProp 𝕄)
      = iprop((((c : Thread nD τ).loc main_arg0) ↦{fullShare} Vr main_arg0) ∗ (((c : Thread nD τ).loc main_v2) ↦{fullShare} Vr main_v2)
          ∗ (((c : Thread nD τ).loc main_v1) ↦{fullShare} Vr main_v1) ∗ (((c : Thread nD τ).loc main_v3) ↦{fullShare} Vr main_v3)
          ∗ (((c : Thread nD τ).loc main_v4) ↦{fullShare} Vr main_v4)) := by
  unfold Pipeline.arrBufs
  exact bigSep_eq_bigSepL_of_eq [main_arg0, main_v2, main_v1, main_v3, main_v4] (by decide) (by decide) _

theorem arrays2_eq (V : (c : Dev nD) → (b : Ref sig .tc) → Buf (Elt F) ((c : Thread nD τ).loc b)) (c : Dev nD)
    (Fa : (w : Fin cfg2.W) → Buf (Elt F) ((cfg2.win w).arr.view.loc (c : Thread nD τ))) :
    ((dat2 V c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v2) ↦{fullShare.left} Fa 2) ∗ (((c : Thread nD τ).loc main_v2) ↦{fullShare.right} Fa 3)
          ∗ (((c : Thread nD τ).loc main_v1) ↦{fullShare} Fa 4) ∗ (((c : Thread nD τ).loc main_v3) ↦{fullShare} Fa 5)
          ∗ (((c : Thread nD τ).loc main_v4) ↦{fullShare} Fa 6)) := by
  unfold Dat.arrays
  rw [bigSep_W2]
  have h0 : (cfg2.win 0).arr.IsWhole := arr_whole2 0
  have h1 : (cfg2.win 1).arr.IsWhole := arr_whole2 1
  have h2 : (cfg2.win 2).arr.IsWhole := arr_whole2 2
  have h3 : (cfg2.win 3).arr.IsWhole := arr_whole2 3
  have h4 : (cfg2.win 4).arr.IsWhole := arr_whole2 4
  have h5 : (cfg2.win 5).arr.IsWhole := arr_whole2 5
  have h6 : (cfg2.win 6).arr.IsWhole := arr_whole2 6
  rw [h0.set_eq_univ, h2.set_eq_univ, h4.set_eq_univ, h5.set_eq_univ, h6.set_eq_univ]
  rfl

set_option backward.isDefEq.respectTransparency.types false in
/-- ENTRY: the unscoped buffers held whole give the region's arrays at its windows' shares, and the rest. -/
theorem entry2 (c : Dev nD) :
    (StableHlo.held (c : Thread nD τ) (Pipeline.ucRefs τ sig) (W4 m c) : sProp 𝕄)
      ⊢ iprop((pdats m 2 c).arrays ((pdats m 2 c).arrAt · 0)
          ∗ Pipeline.unscopedRest (Ix := Unit) (Name := ℕ) (U := UR sig nD τ) (Lvl := ℕ) spec2 c (V4r m c)) := by
  rw [← Pipeline.unscopedBufs_held (Ix := Unit) (Name := ℕ) (U := UR sig nD τ) (Lvl := ℕ) c (W4 m c)]
  rw [Pipeline.unscopedBufs_split₀ (Pipeline.pin (pcfgs (F := F)) adm) 2 winFacts₀2.arr_unscoped c (V4r m c)]
  refine BIClass.sep_mono ?_ .rfl
  refine (BIBase.Entails.of_eq (arrBufs2_eq c (V4r m c))).trans ?_
  refine BIBase.Entails.trans ?_ (BIBase.Entails.of_eq (arrays2_eq (V4r m) c ((dat2 (V4r m) c).arrAt · 0)).symm)
  iintro ⟨Ha0, Hv2, Hv1, Hv3, Hv4⟩
  ihave Ha := (pointsTo_share (PosShare.mem_left_op_right fullShare)).1 $$ Ha0
  icases Ha with ⟨Ha0l, Ha0r⟩
  ihave Hb := (pointsTo_share (PosShare.mem_left_op_right fullShare)).1 $$ Hv2
  icases Hb with ⟨Hv2l, Hv2r⟩
  isplitl [Ha0l]; · iexact Ha0l
  isplitl [Ha0r]; · iexact Ha0r
  isplitl [Hv2l]; · iexact Hv2l
  isplitl [Hv2r]; · iexact Hv2r
  isplitl [Hv1]; · iexact Hv1
  isplitl [Hv3]; · iexact Hv3
  iexact Hv4

set_option backward.isDefEq.respectTransparency.types false in
/-- EXIT: the arrays at their final contents (the inputs as entered, the result written) and the rest are the unscoped
    buffers at the next boundary's contents. -/
theorem exit2 (c : Dev nD) :
    iprop((pdats m 2 c).arrays ((pdats m 2 c).arrAt · cfg2.N)
          ∗ Pipeline.unscopedRest (Ix := Unit) (Name := ℕ) (U := UR sig nD τ) (Lvl := ℕ) spec2 c (V4r m c))
      ⊢ (StableHlo.held (c : Thread nD τ) (Pipeline.ucRefs τ sig) (W5 m c) : sProp 𝕄) := by
  rw [← Pipeline.unscopedBufs_held (Ix := Unit) (Name := ℕ) (U := UR sig nD τ) (Lvl := ℕ) c (W5 m c)]
  rw [Pipeline.unscopedBufs_split₀ (Pipeline.pin (pcfgs (F := F)) adm) 2 winFacts₀2.arr_unscoped c (V5r m c)]
  refine BIClass.sep_mono ?_ ?_
  · refine BIBase.Entails.trans ?_ (BIBase.Entails.of_eq (arrBufs2_eq c (V5r m c)).symm)
    refine (BIBase.Entails.of_eq (arrays2_eq (V4r m) c ((dat2 (V4r m) c).arrAt · cfg2.N))).trans ?_
    have e0 : (dat2 (V4r m) c).arrAt 0 cfg2.N = V5r m c main_arg0 :=
      ((dat2 (V4r m) c).arrAt_in 0 rfl _).trans ((A_eq2 (V4r m) c 0).trans (W5_of_ne m c main_arg0 (by decide)).symm)
    have e1 : (dat2 (V4r m) c).arrAt 1 cfg2.N = V5r m c main_arg0 :=
      ((dat2 (V4r m) c).arrAt_in 1 rfl _).trans ((A_eq2 (V4r m) c 1).trans (W5_of_ne m c main_arg0 (by decide)).symm)
    have e2 : (dat2 (V4r m) c).arrAt 2 cfg2.N = V5r m c main_v2 :=
      ((dat2 (V4r m) c).arrAt_in 2 rfl _).trans ((A_eq2 (V4r m) c 2).trans (W5_of_ne m c main_v2 (by decide)).symm)
    have e3 : (dat2 (V4r m) c).arrAt 3 cfg2.N = V5r m c main_v2 :=
      ((dat2 (V4r m) c).arrAt_in 3 rfl _).trans ((A_eq2 (V4r m) c 3).trans (W5_of_ne m c main_v2 (by decide)).symm)
    have e4 : (dat2 (V4r m) c).arrAt 4 cfg2.N = V5r m c main_v1 :=
      ((dat2 (V4r m) c).arrAt_in 4 rfl _).trans ((A_eq2 (V4r m) c 4).trans (W5_of_ne m c main_v1 (by decide)).symm)
    have e5 : (dat2 (V4r m) c).arrAt 5 cfg2.N = V5r m c main_v3 :=
      ((dat2 (V4r m) c).arrAt_in 5 rfl _).trans ((A_eq2 (V4r m) c 5).trans (W5_of_ne m c main_v3 (by decide)).symm)
    have e6 : (dat2 (V4r m) c).arrAt 6 cfg2.N = V5r m c main_v4 := (W5_v4 m c).symm
    rw [e0, e1, e2, e3, e4, e5, e6]
    iintro ⟨Ha0l, Ha0r, Hv2l, Hv2r, Hv1, Hv3, Hv4⟩
    isplitl [Ha0l Ha0r]
    · iapply (pointsTo_share (PosShare.mem_left_op_right fullShare)).2
      isplitl [Ha0l]; · iexact Ha0l
      iexact Ha0r
    isplitl [Hv2l Hv2r]
    · iapply (pointsTo_share (PosShare.mem_left_op_right fullShare)).2
      isplitl [Hv2l]; · iexact Hv2l
      iexact Hv2r
    isplitl [Hv1]; · iexact Hv1
    isplitl [Hv3]; · iexact Hv3
    iexact Hv4
  · rw [unscopedRest2_eq c (V4r m c)]
    show _ ⊢ (Pipeline.unscopedRest (Ix := Unit) (Name := ℕ) (U := UR sig nD τ) (Lvl := ℕ) spec2 c (V5r m c) : sProp 𝕄)
    rw [unscopedRest2_eq c (V5r m c)]
    dsimp only [V5r]
    rw [W5_of_ne m c main_arg1 (by decide), W5_of_ne m c main_arg2 (by decide), W5_of_ne m c main_arg3 (by decide), W5_of_ne m c main_v0 (by decide)]

/-! ## The third region as a segment -/

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4r m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4r m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4r m) c)
    unfold Pipeline.ΦA
    iintro ⟨Hp, -, Hr⟩
    isplitl [Hr]; · iexact Hr
    iexact Hp
  hout c := by
    rw [Pipeline.ownSems0_none]
    refine (hout2 (V4r m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m c); isplitl [Ha] <;> iassumption
      iexact HY
    unfold Pipeline.Dat.owesAt Pipeline.owesWithin
    icases HO with ⟨%W, -, HO⟩; iexists W; iexact HO

/-! ## The program as segments, and its run -/

theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .host (hseg hostOps2 hostOps2_sub hostOps2_fresh' (W3 m)),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KernelIdeal_Args.lean ====
/-
  The argument buffers through the run: no host step and no region writes an argument, so each boundary's contents at an
  argument are the launch contents.
-/
import proofs.«176108_j55224689492023_2_alg».proof.Proof.KernelIdeal_Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

theorem hostOps1_writes' : (hostOps1 : List (HloOp τ sig (Elt F))).Forall fun op => op.writes ⊆ (([main_v1] : List (Ref sig .tc)).map (Proc.devRef (τ := τ) .tc)).toFinset := by
  simp only [List.Forall]; exact (by simp only [StableHlo.unary_writes, Finset.singleton_subset_iff, List.mem_toFinset]; exact List.mem_map_of_mem (by decide))
theorem hostOps2_writes' : (hostOps2 : List (HloOp τ sig (Elt F))).Forall fun op => op.writes ⊆ (([main_v3] : List (Ref sig .tc)).map (Proc.devRef (τ := τ) .tc)).toFinset := by
  simp only [List.Forall]; exact (by simp only [StableHlo.reshape_writes, Finset.singleton_subset_iff, List.mem_toFinset]; exact List.mem_map_of_mem (by decide))

theorem W2_of (c : Dev nD) (r : Ref sig .tc) (h : r ∉ ([main_v1] : List (Ref sig .tc))) : W2 m c r = W1 m c r :=
  StableHlo.after_of_writes_sub hostOps1 _ hostOps1_writes' h
theorem W4_of (c : Dev nD) (r : Ref sig .tc) (h : r ∉ ([main_v3] : List (Ref sig .tc))) : W4 m c r = W3 m c r :=
  StableHlo.after_of_writes_sub hostOps2 _ hostOps2_writes' h

theorem V0r_arg0 (c : Dev nD) : V0r m c main_arg0 = m ((c : Thread nD τ).loc main_arg0) := rfl
theorem V2r_arg1 (c : Dev nD) : V2r m c main_arg1 = m ((c : Thread nD τ).loc main_arg1) :=
  (W2_of m c main_arg1 (by decide)).trans ((W1_of_ne m c main_arg1 (by decide)).trans rfl)
theorem V2r_arg2 (c : Dev nD) : V2r m c main_arg2 = m ((c : Thread nD τ).loc main_arg2) :=
  (W2_of m c main_arg2 (by decide)).trans ((W1_of_ne m c main_arg2 (by decide)).trans rfl)
theorem W1_arg0 (c : Dev nD) : W1 m c (Proc.devRef .tc main_arg0) = m ((c : Thread nD τ).loc main_arg0) :=
  (W1_arr m c 0).trans (((dat0 (V0r m) c).arrAt_in 0 rfl _).trans (A_eq0 (V0r m) c 0))
theorem V4r_arg0 (c : Dev nD) : V4r m c main_arg0 = m ((c : Thread nD τ).loc main_arg0) :=
  (W4_of m c main_arg0 (by decide)).trans ((W3_of_ne m c main_arg0 (by decide)).trans ((W2_of m c main_arg0 (by decide)).trans (W1_arg0 m c)))
theorem W3_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))

theorem W5_arg0 (c : Dev nD) : W5 m c (Proc.devRef .tc main_arg0) = m ((c : Thread nD τ).loc main_arg0) :=
  (W5_of_ne m c main_arg0 (by decide)).trans (V4r_arg0 m c)
theorem W5_arg1 (c : Dev nD) : W5 m c (Proc.devRef .tc main_arg1) = m ((c : Thread nD τ).loc main_arg1) :=
  (W5_of_ne m c main_arg1 (by decide)).trans ((W4_of m c main_arg1 (by decide)).trans
    ((W3_arr m c 0).trans (((dat1 (V2r m) c).arrAt_in 0 rfl _).trans ((A_eq1 (V2r m) c 0).trans (V2r_arg1 m c)))))
theorem W5_arg2 (c : Dev nD) : W5 m c (Proc.devRef .tc main_arg2) = m ((c : Thread nD τ).loc main_arg2) :=
  (W5_of_ne m c main_arg2 (by decide)).trans ((W4_of m c main_arg2 (by decide)).trans
    ((W3_arr m c 1).trans (((dat1 (V2r m) c).arrAt_in 1 rfl _).trans ((A_eq1 (V2r m) c 1).trans (V2r_arg2 m c)))))
theorem W5_arg3 (c : Dev nD) : W5 m c (Proc.devRef .tc main_arg3) = m ((c : Thread nD τ).loc main_arg3) :=
  (W5_of_ne m c main_arg3 (by decide)).trans ((W4_of m c main_arg3 (by decide)).trans (W3_arg3 m c))

/-- THE FRAME: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_arg0 m c), (h c _ (mem_uc main_arg1 (by decide))).trans (W5_arg1 m c),
      (h c _ (mem_uc main_arg2 (by decide))).trans (W5_arg2 m c), (h c _ (mem_uc main_arg3 (by decide))).trans (W5_arg3 m c)⟩)
    (run_all m ρ)

end Cert.KernelIdeal.Hand

end
-- ==== Proof.KernelIdeal_Value0.lean ====
/-
  The first kernel region's result as a function of the adjacency matrix. The accumulator after a grid point is the
  running sum, over the row blocks met so far in the current column block, of the block's column sums (started from the
  zero row at each first row block); the output block written at a last row block is its square root. So entry (0, j)
  of the result row is the square root of the eight row blocks' column sums of column j, added in order.
-/
import proofs.«176108_j55224689492023_2_alg».proof.Proof.KernelIdeal_Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-! ## What each case leaves, as the body's arithmetic -/

theorem sout0_A_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : cond0_0 i) (hc1 : ¬cond0_1 i) (x0 : Vec F S1024x1024 .f32) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1x1024) hz2, View.readCov_unit_zero (S := S1x1024) _ hz2]
  simp only [View.readAt_eq_ld, harg2.read_unread, View.ld_unit_zero (S := S1024x1024) hz2]

theorem sout0_B_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : ¬cond0_1 i) (x0 : Vec F S1024x1024 .f32) (xs0 : Vec F S1x1024 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg2.read_unread, harg4.read_unread, View.ld_unit_zero (S := S1024x1024) hz2, View.ld_unit_zero (S := S1x1024) hz2]

theorem sout0_C_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S1024x1024) hz2, View.ld_unit_zero (S := S1x1024) hz2]

theorem out0_C_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (hc0 : ¬cond0_0 i) (hc1 : cond0_1 i) (x0 : Vec F S1024x1024 .f32) (xs0 : Vec F S1x1024 .f32) :
    out0_C_1 c i arg2 harg2 arg3 harg3 arg4 harg4 hc0 hc1 x0 xs0 = k0_pay3 (k0_pay2 xs0 x0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz2, View.readCov_unit_zero (S := S1x1024) _ hz2]
  simp only [View.readAt_eq_ld, harg2.read_unread, harg4.read_unread, View.ld_unit_zero (S := S1024x1024) hz2, View.ld_unit_zero (S := S1x1024) hz2]

/-! ## The accumulator, point by point -/

/-- The accumulator after point `n`: restarted from the zero row at a first row block, else the previous point's plus
    this block's column sums. -/
def acc0 (c : Dev nD) : (n : ℕ) → n < cfg0.N → Vec F S1x1024 .f32
  | 0, h => k0_pay2 (k0_pay1 (F := F)) (iblk0 V c 0 ⟨0, h⟩)
  | n + 1, h => if (n + 1) % 8 = 0 then k0_pay2 (k0_pay1 (F := F)) (iblk0 V c 0 ⟨n + 1, h⟩)
      else k0_pay2 (acc0 c n (Nat.lt_of_succ_lt h)) (iblk0 V c 0 ⟨n + 1, h⟩)

theorem outsAt0_acc (c : Dev nD) : ∀ (n : ℕ) (h : n < cfg0.N), (outsAt0 V c n h).2 = acc0 V c n h
  | 0, h => by
    rw [outsAt0_A V c ⟨0, h⟩ rfl (by show ¬ 0 % 8 = 7; decide)]
    dsimp only
    rw [sout0_A_eq, acc0]
  | n + 1, h => by
    have hN : cfg0.N = 64 := N_0
    by_cases h0 : (n + 1) % 8 = 0
    · rw [outsAt0_A V c ⟨n + 1, h⟩ h0 (by dsimp only; omega)]
      dsimp only
      rw [sout0_A_eq, acc0, if_pos h0]
    · by_cases h1 : (n + 1) % 8 = 7
      · rw [outsAt0_C V c ⟨n + 1, h⟩ h0 h1]
        dsimp only
        rw [sout0_C_eq, acc0, if_neg h0]
        show k0_pay2 (outsAt0 V c n _).2 _ = _
        rw [outsAt0_acc c n]
      · rw [outsAt0_B V c ⟨n + 1, h⟩ h0 h1]
        dsimp only
        rw [sout0_B_eq, acc0, if_neg h0]
        show k0_pay2 (outsAt0 V c n _).2 _ = _
        rw [outsAt0_acc c n]

/-- At a last row block the output block holds the square root of the accumulator. -/
theorem outsAt0_out (c : Dev nD) (t : Fin cfg0.N) (h7 : t.val % 8 = 7) :
    (outsAt0 V c t.val t.isLt).1 = k0_pay3 (acc0 V c t.val t.isLt) := by
  have h0 : ¬ t.val % 8 = 0 := by omega
  have hpos : t.val ≠ 0 := fun e => h0 (by rw [e])
  rw [outsAt0_C V c t h0 h7]
  dsimp only
  rw [out0_C_eq]
  obtain ⟨n, hn⟩ := t
  cases n with
  | zero => exact absurd rfl hpos
  | succ n =>
    show k0_pay3 (k0_pay2 (outsAt0 V c n _).2 _) = k0_pay3 (acc0 V c (n + 1) hn)
    rw [outsAt0_acc V c n, acc0, if_neg h0]

end Cert.KernelIdeal.Hand

end
-- ==== Proof.KernelIdeal_Value0b.lean ====
/-
  The first kernel region's result row: its blocks, and the row as a whole. The output block with index c is written back
  once, after the last row block of column block c, holding the square root of that column block's accumulated sums; these
  eight blocks tile the row, so entry (0, j) of the row is the square root of column j's accumulated sum.
-/
import proofs.«176108_j55224689492023_2_alg».proof.Proof.KernelIdeal_Value0

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The output window's block index at a point: row 0, column block = the point's outer coordinate. -/
theorem idx0_1 : ∀ t : Fin cfg0.N, win0_1.index t 0 = 0 ∧ win0_1.index t 1 = t.val / 8 :=
  (by decide +kernel : ∀ t : Fin grid0.N, win0_1.index t 0 = 0 ∧ win0_1.index t 1 = t.val / 8)
theorem xs0_1 : ∀ t : Fin cfg0.N, win0_1.xsize (grid0.coords t) 0 = 1 ∧ win0_1.xsize (grid0.coords t) 1 = 1024 :=
  (by decide +kernel : ∀ t : Fin grid0.N, win0_1.xsize (grid0.coords t) 0 = 1 ∧ win0_1.xsize (grid0.coords t) 1 = 1024)

theorem acc0_congr (c : Dev nD) {n n' : ℕ} (e : n = n') (h : n < cfg0.N) (h' : n' < cfg0.N) : acc0 V c n h = acc0 V c n' h' := by
  subst e; rfl

/-- The result row. -/
def G0 (c : Dev nD) : Buf (Elt F) ((c : Thread nD τ).loc main_v0) := fun i =>
  k0_pay3 (acc0 V c (8 * ((i 1).val / 1024) + 7) (by
      have h : (i 1).val < 8192 := (i 1).isLt
      rw [show cfg0.N = 64 from N_0]; omega))
    (ix2 (0 : Fin 1) (⟨(i 1).val % 1024, Nat.mod_lt _ (by decide)⟩ : Fin 1024))

theorem flushed_eq0 (c : Dev nD) (t : Fin cfg0.N) (hf : (cfg0.win 1).flush t = true) :
    (dat0 V c).flushed 1 t = ((cfg0.win 1).blk t).view.read (Elt F) (G0 V c) := by
  have h7 : t.val % 8 = 7 := (flush0_1 t).mp hf
  have hN : cfg0.N = 64 := N_0
  have htN : t.val < 64 := lt_of_lt_of_eq t.isLt hN
  show (cfg0.win 1).cut (grid0.coords t) ((dat0 V c).after 1 t) = _
  rw [after0_1, outsAt0_out V c t h7]
  funext y
  have hy1 : (y 1).val < 1024 := lt_of_lt_of_eq (y 1).isLt (xs0_1 t).2
  have hy0 : (y 0).val < 1 := lt_of_lt_of_eq (y 0).isLt (xs0_1 t).1
  have he1 : ((((cfg0.win 1).blk t).view.emb y) 1).val = (t.val / 8) * 1024 + (y 1).val := by
    show win0_1.index t 1 * 1024 + 1 * (y 1).val = _
    rw [(idx0_1 t).2]; omega
  have hq : 8 * (((((cfg0.win 1).blk t).view.emb y) 1).val / 1024) + 7 = t.val := by rw [he1]; omega
  have hr : ((((cfg0.win 1).blk t).view.emb y) 1).val % 1024 = (y 1).val := by rw [he1]; omega
  show k0_pay3 (acc0 V c t.val t.isLt) ((cfg0.win 1).xinj (grid0.coords t) y) = G0 V c (((cfg0.win 1).blk t).view.emb y)
  unfold G0
  rw [acc0_congr V c hq _ t.isLt]
  refine congrArg (k0_pay3 (acc0 V c t.val t.isLt)) (funext fun a => Fin.ext ?_)
  match a with
  | ⟨0, _⟩ => show (y 0).val = 0; omega
  | ⟨1, _⟩ => show (y 1).val = _ % 1024; exact hr.symm

theorem final0 (c : Dev nD) : (dat0 V c).arrAt 1 cfg0.N = G0 V c :=
  (dat0 V c).arrAt_eq_of_cover 1 (G0 V c) (flushed_eq0 V c) fun i => by
    have hN : cfg0.N = 64 := N_0
    have h1 : (i 1).val < 8192 := (i 1).isLt
    have h0 : (i 0).val < 1 := (i 0).isLt
    have hlt : 8 * ((i 1).val / 1024) + 7 < cfg0.N := by rw [hN]; omega
    refine ⟨⟨8 * ((i 1).val / 1024) + 7, hlt⟩, (flush0_1 _).mpr (by show (8 * ((i 1).val / 1024) + 7) % 8 = 7; omega), ?_⟩
    show i ∈ ((View.whole main_v0).slice (win0_1.rect ⟨8 * ((i 1).val / 1024) + 7, hlt⟩)).set
    rw [View.set_slice_whole, Rect.mem_set_unit]
    intro a
    match a with
    | ⟨0, _⟩ =>
      show win0_1.index ⟨8 * ((i 1).val / 1024) + 7, hlt⟩ 0 * 1 ≤ (i 0).val ∧ (i 0).val < win0_1.index ⟨8 * ((i 1).val / 1024) + 7, hlt⟩ 0 * 1 + win0_1.xsize (grid0.coords ⟨8 * ((i 1).val / 1024) + 7, hlt⟩) 0
      rw [(idx0_1 _).1, (xs0_1 _).1]; omega
    | ⟨1, _⟩ =>
      show win0_1.index ⟨8 * ((i 1).val / 1024) + 7, hlt⟩ 1 * 1024 ≤ (i 1).val ∧ (i 1).val < win0_1.index ⟨8 * ((i 1).val / 1024) + 7, hlt⟩ 1 * 1024 + win0_1.xsize (grid0.coords ⟨8 * ((i 1).val / 1024) + 7, hlt⟩) 1
      rw [(idx0_1 _).2, (xs0_1 _).2]
      show (8 * ((i 1).val / 1024) + 7) / 8 * 1024 ≤ (i 1).val ∧ (i 1).val < (8 * ((i 1).val / 1024) + 7) / 8 * 1024 + 1024
      omega

end Cert.KernelIdeal.Hand

end
-- ==== Proof.KernelIdeal_Value1.lean ====
/-
  The second kernel region's result as a function of the features, the weights and the column-scale vector: row block t of
  the result is the body's one payload of the three input blocks at point t, and the eight blocks tile the result.
-/
import proofs.«176108_j55224689492023_2_alg».proof.Proof.KernelIdeal_Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz2' : (![0, 0] : Fin 2 → Nat) = fun _ => 0 := funext fun a => by fin_cases a <;> rfl

theorem out1_3_eq (x0 : Vec F S1024x256 .f32) (x1 : Vec F S256x128 .f32) (x2 : Vec F S1024x1 .f32) :
    out1_3 x0 x1 x2 = k1_pay1 x0 x1 x2 := by
  unfold out1_3
  rw [View.canon_unit_zero hz2']
  simp only [View.ld_unit_zero (S := S1024x256) hz2', View.ld_unit_zero (S := S256x128) hz2', View.ld_unit_zero (S := S1024x1) hz2']

/-- What point `t` writes: the payload of its three input blocks. -/
def blk1val (c : Dev nD) (t : Fin cfg1.N) : Vec F S1024x128 .f32 :=
  k1_pay1 (iblk1 V c 0 t) (iblk1 V c 1 t) (iblk1 V c 2 t)

theorem idx1_3 : ∀ t : Fin cfg1.N, win1_3.index t 0 = t.val ∧ win1_3.index t 1 = 0 :=
  (by decide +kernel : ∀ t : Fin grid1.N, win1_3.index t 0 = t.val ∧ win1_3.index t 1 = 0)
theorem xs1_3 : ∀ t : Fin cfg1.N, win1_3.xsize (grid1.coords t) 0 = 1024 ∧ win1_3.xsize (grid1.coords t) 1 = 128 :=
  (by decide +kernel : ∀ t : Fin grid1.N, win1_3.xsize (grid1.coords t) 0 = 1024 ∧ win1_3.xsize (grid1.coords t) 1 = 128)

/-- The result array. -/
def G1 (c : Dev nD) : Buf (Elt F) ((c : Thread nD τ).loc main_v2) := fun i =>
  blk1val V c ⟨(i 0).val / 1024, by
      have h : (i 0).val < 8192 := (i 0).isLt
      rw [show cfg1.N = 8 from N_1]; omega⟩
    (ix2 (⟨(i 0).val % 1024, Nat.mod_lt _ (by decide)⟩ : Fin 1024) (⟨(i 1).val, (i 1).isLt⟩ : Fin 128))

theorem flushed_eq1 (c : Dev nD) (t : Fin cfg1.N) (hf : (cfg1.win 3).flush t = true) :
    (dat1 V c).flushed 3 t = ((cfg1.win 3).blk t).view.read (Elt F) (G1 V c) := by
  have hN : cfg1.N = 8 := N_1
  have htN : t.val < 8 := lt_of_lt_of_eq t.isLt hN
  show (cfg1.win 3).cut (grid1.coords t) ((dat1 V c).after 3 t) = _
  rw [after1_3, out1_3_eq]
  funext y
  have hy0 : (y 0).val < 1024 := lt_of_lt_of_eq (y 0).isLt (xs1_3 t).1
  have hy1 : (y 1).val < 128 := lt_of_lt_of_eq (y 1).isLt (xs1_3 t).2
  have he0 : ((((cfg1.win 3).blk t).view.emb y) 0).val = t.val * 1024 + (y 0).val := by
    show win1_3.index t 0 * 1024 + 1 * (y 0).val = _
    rw [(idx1_3 t).1]; omega
  have he1 : ((((cfg1.win 3).blk t).view.emb y) 1).val = (y 1).val := by
    show win1_3.index t 1 * 128 + 1 * (y 1).val = _
    rw [(idx1_3 t).2]; omega
  show blk1val V c t ((cfg1.win 3).xinj (grid1.coords t) y) = G1 V c (((cfg1.win 3).blk t).view.emb y)
  unfold G1
  have ht' : (⟨((((cfg1.win 3).blk t).view.emb y) 0).val / 1024, by rw [he0]; omega⟩ : Fin cfg1.N) = t :=
    Fin.ext (by show _ / 1024 = t.val; rw [he0]; omega)
  rw [ht']
  refine congrArg (blk1val V c t) (funext fun a => Fin.ext ?_)
  match a with
  | ⟨0, _⟩ => show (y 0).val = _ % 1024; rw [he0]; omega
  | ⟨1, _⟩ => show (y 1).val = _; exact he1.symm

theorem final1 (c : Dev nD) : (dat1 V c).arrAt 3 cfg1.N = G1 V c :=
  (dat1 V c).arrAt_eq_of_cover 3 (G1 V c) (flushed_eq1 V c) fun i => by
    have hN : cfg1.N = 8 := N_1
    have h0 : (i 0).val < 8192 := (i 0).isLt
    have h1 : (i 1).val < 128 := (i 1).isLt
    have hlt : (i 0).val / 1024 < cfg1.N := by rw [hN]; omega
    refine ⟨⟨(i 0).val / 1024, hlt⟩, flush1_3 _, ?_⟩
    show i ∈ ((View.whole main_v2).slice (win1_3.rect ⟨(i 0).val / 1024, hlt⟩)).set
    rw [View.set_slice_whole, Rect.mem_set_unit]
    intro a
    match a with
    | ⟨0, _⟩ =>
      show win1_3.index ⟨(i 0).val / 1024, hlt⟩ 0 * 1024 ≤ (i 0).val ∧ (i 0).val < win1_3.index ⟨(i 0).val / 1024, hlt⟩ 0 * 1024 + win1_3.xsize (grid1.coords ⟨(i 0).val / 1024, hlt⟩) 0
      rw [(idx1_3 _).1, (xs1_3 _).1]
      show (i 0).val / 1024 * 1024 ≤ (i 0).val ∧ (i 0).val < (i 0).val / 1024 * 1024 + 1024
      omega
    | ⟨1, _⟩ =>
      show win1_3.index ⟨(i 0).val / 1024, hlt⟩ 1 * 128 ≤ (i 1).val ∧ (i 1).val < win1_3.index ⟨(i 0).val / 1024, hlt⟩ 1 * 128 + win1_3.xsize (grid1.coords ⟨(i 0).val / 1024, hlt⟩) 1
      rw [(idx1_3 _).2, (xs1_3 _).2]; omega

end Cert.KernelIdeal.Hand

end
-- ==== Proof.KernelIdeal_Value2.lean ====
/-
  The third kernel region's result as a function of its input arrays. The accumulator after a grid point is restarted
  from the zero block at a first column block and otherwise receives, added to what the previous point left, the sum of
  the two products of this point's adjacency blocks with the scaled feature block; the output block written at a last
  column block is the finalisation of the accumulator with the row block's own scaled features, scale column and bias row.
  These eight-times-written blocks tile the result.
-/
import proofs.«176108_j55224689492023_2_alg».proof.Proof.KernelIdeal_Region2
import proofs.«176108_j55224689492023_2_alg».proof.Proof.KernelIdeal_Value0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## What each case leaves, as the body's arithmetic -/

theorem sout2_A_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) :
    sout2_A_0 c i arg2 harg2 arg3 harg3 arg4 harg4 arg5 harg5 arg6 harg6 arg7 harg7 arg8 harg8 arg9 harg9 hc0 hc1 x0 x1 x2 x3 x4 x5 = k2_pay2 x0 x1 x2 (k2_pay1 (F := F)) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S1024x128) hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x1024) hz2, View.ld_unit_zero (S := S1024x128) hz2, View.ld_unit_zero (S := S1024x1) hz2, View.ld_unit_zero (S := S1x128) hz2]

theorem sout2_B_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    sout2_B_0 c i arg2 harg2 arg3 harg3 arg4 harg4 arg5 harg5 arg6 harg6 arg7 harg7 arg8 harg8 arg9 harg9 hc0 hc1 x0 x1 x2 x3 x4 x5 xs0 = k2_pay2 x0 x1 x2 xs0 := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 x4 x5 xs0)]
  unfold kernelRun2_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S1024x1024) hz2, View.ld_unit_zero (S := S1024x128) hz2, View.ld_unit_zero (S := S1024x1) hz2, View.ld_unit_zero (S := S1x128) hz2]

theorem sout2_C_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    sout2_C_0 c i arg2 harg2 arg3 harg3 arg4 harg4 arg5 harg5 arg6 harg6 arg7 harg7 arg8 harg8 arg9 harg9 hc0 hc1 x0 x1 x2 x3 x4 x5 xs0 = k2_pay2 x0 x1 x2 xs0 := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S1024x1024) hz2, View.ld_unit_zero (S := S1024x128) hz2, View.ld_unit_zero (S := S1024x1) hz2, View.ld_unit_zero (S := S1x128) hz2]

theorem out2_C_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x1024 .f32) (x2 : Vec F S1024x128 .f32) (x3 : Vec F S1024x128 .f32) (x4 : Vec F S1024x1 .f32) (x5 : Vec F S1x128 .f32) (xs0 : Vec F S1024x128 .f32) :
    out2_C_6 c i arg2 harg2 arg3 harg3 arg4 harg4 arg5 harg5 arg6 harg6 arg7 harg7 arg8 harg8 arg9 harg9 hc0 hc1 x0 x1 x2 x3 x4 x5 xs0 = k2_pay3 (k2_pay2 x0 x1 x2 xs0) x3 x4 x5 := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x1024) hz2, View.ld_unit_zero (S := S1024x128) hz2, View.ld_unit_zero (S := S1024x1) hz2, View.ld_unit_zero (S := S1x128) hz2]

/-! ## The accumulator, point by point -/

def acc2 (c : Dev nD) : (n : ℕ) → n < cfg2.N → Vec F S1024x128 .f32
  | 0, h => k2_pay2 (iblk2 V c 0 ⟨0, h⟩) (iblk2 V c 1 ⟨0, h⟩) (iblk2 V c 2 ⟨0, h⟩) (k2_pay1 (F := F))
  | n + 1, h => if (n + 1) % 8 = 0 then k2_pay2 (iblk2 V c 0 ⟨n + 1, h⟩) (iblk2 V c 1 ⟨n + 1, h⟩) (iblk2 V c 2 ⟨n + 1, h⟩) (k2_pay1 (F := F))
      else k2_pay2 (iblk2 V c 0 ⟨n + 1, h⟩) (iblk2 V c 1 ⟨n + 1, h⟩) (iblk2 V c 2 ⟨n + 1, h⟩) (acc2 c n (Nat.lt_of_succ_lt h))

theorem outsAt2_acc (c : Dev nD) : ∀ (n : ℕ) (h : n < cfg2.N), (outsAt2 V c n h).2 = acc2 V c n h
  | 0, h => by
    rw [outsAt2_A V c ⟨0, h⟩ rfl (by show ¬ 0 % 8 = 7; decide)]
    dsimp only
    rw [sout2_A_eq, acc2]
  | n + 1, h => by
    have hN : cfg2.N = 64 := N_2
    by_cases h0 : (n + 1) % 8 = 0
    · rw [outsAt2_A V c ⟨n + 1, h⟩ h0 (by dsimp only; omega)]
      dsimp only
      rw [sout2_A_eq, acc2, if_pos h0]
    · by_cases h1 : (n + 1) % 8 = 7
      · rw [outsAt2_C V c ⟨n + 1, h⟩ h0 h1]
        dsimp only
        rw [sout2_C_eq, acc2, if_neg h0]
        show k2_pay2 _ _ _ (outsAt2 V c n _).2 = _
        rw [outsAt2_acc c n]
      · rw [outsAt2_B V c ⟨n + 1, h⟩ h0 h1]
        dsimp only
        rw [sout2_B_eq, acc2, if_neg h0]
        show k2_pay2 _ _ _ (outsAt2 V c n _).2 = _
        rw [outsAt2_acc c n]

/-- What a last-column-block point `t` writes. -/
def blk2val (c : Dev nD) (t : Fin cfg2.N) : Vec F S1024x128 .f32 :=
  k2_pay3 (acc2 V c t.val t.isLt) (iblk2 V c 3 t) (iblk2 V c 4 t) (iblk2 V c 5 t)

theorem outsAt2_out (c : Dev nD) (t : Fin cfg2.N) (h7 : t.val % 8 = 7) :
    (outsAt2 V c t.val t.isLt).1 = blk2val V c t := by
  have h0 : ¬ t.val % 8 = 0 := by omega
  have hpos : t.val ≠ 0 := fun e => h0 (by rw [e])
  rw [outsAt2_C V c t h0 h7]
  dsimp only
  rw [out2_C_eq]
  unfold blk2val
  obtain ⟨n, hn⟩ := t
  cases n with
  | zero => exact absurd rfl hpos
  | succ n =>
    show k2_pay3 (k2_pay2 _ _ _ (outsAt2 V c n _).2) _ _ _ = k2_pay3 (acc2 V c (n + 1) hn) _ _ _
    rw [outsAt2_acc V c n, acc2, if_neg h0]

/-! ## The result array -/

theorem idx2_6 : ∀ t : Fin cfg2.N, win2_6.index t 0 = t.val / 8 ∧ win2_6.index t 1 = 0 :=
  (by decide +kernel : ∀ t : Fin grid2.N, win2_6.index t 0 = t.val / 8 ∧ win2_6.index t 1 = 0)
theorem xs2_6 : ∀ t : Fin cfg2.N, win2_6.xsize (grid2.coords t) 0 = 1024 ∧ win2_6.xsize (grid2.coords t) 1 = 128 :=
  (by decide +kernel : ∀ t : Fin grid2.N, win2_6.xsize (grid2.coords t) 0 = 1024 ∧ win2_6.xsize (grid2.coords t) 1 = 128)

def G2 (c : Dev nD) : Buf (Elt F) ((c : Thread nD τ).loc main_v4) := fun i =>
  blk2val V c ⟨8 * ((i 0).val / 1024) + 7, by
      have h : (i 0).val < 8192 := (i 0).isLt
      rw [show cfg2.N = 64 from N_2]; omega⟩
    (ix2 (⟨(i 0).val % 1024, Nat.mod_lt _ (by decide)⟩ : Fin 1024) (⟨(i 1).val, (i 1).isLt⟩ : Fin 128))

theorem flushed_eq2 (c : Dev nD) (t : Fin cfg2.N) (hf : (cfg2.win 6).flush t = true) :
    (dat2 V c).flushed 6 t = ((cfg2.win 6).blk t).view.read (Elt F) (G2 V c) := by
  have h7 : t.val % 8 = 7 := (flush2_6 t).mp hf
  have hN : cfg2.N = 64 := N_2
  have htN : t.val < 64 := lt_of_lt_of_eq t.isLt hN
  show (cfg2.win 6).cut (grid2.coords t) ((dat2 V c).after 6 t) = _
  rw [after2_6, outsAt2_out V c t h7]
  funext y
  have hy0 : (y 0).val < 1024 := lt_of_lt_of_eq (y 0).isLt (xs2_6 t).1
  have hy1 : (y 1).val < 128 := lt_of_lt_of_eq (y 1).isLt (xs2_6 t).2
  have he0 : ((((cfg2.win 6).blk t).view.emb y) 0).val = (t.val / 8) * 1024 + (y 0).val := by
    show win2_6.index t 0 * 1024 + 1 * (y 0).val = _
    rw [(idx2_6 t).1]; omega
  have he1 : ((((cfg2.win 6).blk t).view.emb y) 1).val = (y 1).val := by
    show win2_6.index t 1 * 128 + 1 * (y 1).val = _
    rw [(idx2_6 t).2]; omega
  show blk2val V c t ((cfg2.win 6).xinj (grid2.coords t) y) = G2 V c (((cfg2.win 6).blk t).view.emb y)
  unfold G2
  have ht' : (⟨8 * (((((cfg2.win 6).blk t).view.emb y) 0).val / 1024) + 7, by rw [he0]; omega⟩ : Fin cfg2.N) = t :=
    Fin.ext (by show 8 * (_ / 1024) + 7 = t.val; rw [he0]; omega)
  rw [ht']
  refine congrArg (blk2val V c t) (funext fun a => Fin.ext ?_)
  match a with
  | ⟨0, _⟩ => show (y 0).val = _ % 1024; rw [he0]; omega
  | ⟨1, _⟩ => show (y 1).val = _; exact he1.symm

theorem final2 (c : Dev nD) : (dat2 V c).arrAt 6 cfg2.N = G2 V c :=
  (dat2 V c).arrAt_eq_of_cover 6 (G2 V c) (flushed_eq2 V c) fun i => by
    have hN : cfg2.N = 64 := N_2
    have h0 : (i 0).val < 8192 := (i 0).isLt
    have h1 : (i 1).val < 128 := (i 1).isLt
    have hlt : 8 * ((i 0).val / 1024) + 7 < cfg2.N := by rw [hN]; omega
    refine ⟨⟨8 * ((i 0).val / 1024) + 7, hlt⟩, (flush2_6 _).mpr (by show (8 * ((i 0).val / 1024) + 7) % 8 = 7; omega), ?_⟩
    show i ∈ ((View.whole main_v4).slice (win2_6.rect ⟨8 * ((i 0).val / 1024) + 7, hlt⟩)).set
    rw [View.set_slice_whole, Rect.mem_set_unit]
    intro a
    match a with
    | ⟨0, _⟩ =>
      show win2_6.index ⟨8 * ((i 0).val / 1024) + 7, hlt⟩ 0 * 1024 ≤ (i 0).val ∧ (i 0).val < win2_6.index ⟨8 * ((i 0).val / 1024) + 7, hlt⟩ 0 * 1024 + win2_6.xsize (grid2.coords ⟨8 * ((i 0).val / 1024) + 7, hlt⟩) 0
      rw [(idx2_6 _).1, (xs2_6 _).1]
      show (8 * ((i 0).val / 1024) + 7) / 8 * 1024 ≤ (i 0).val ∧ (i 0).val < (8 * ((i 0).val / 1024) + 7) / 8 * 1024 + 1024
      omega
    | ⟨1, _⟩ =>
      show win2_6.index ⟨8 * ((i 0).val / 1024) + 7, hlt⟩ 1 * 128 ≤ (i 1).val ∧ (i 1).val < win2_6.index ⟨8 * ((i 0).val / 1024) + 7, hlt⟩ 1 * 128 + win2_6.xsize (grid2.coords ⟨8 * ((i 0).val / 1024) + 7, hlt⟩) 1
      rw [(idx2_6 _).2, (xs2_6 _).2]; omega

end Cert.KernelIdeal.Hand

end
-- ==== Proof.KernelIdeal_Chain.lean ====
/-
  The buffer contents at the regions' entries, read back through the run: the scale column the second and third regions
  read is the first region's result row transposed; the scaled features the third region reads are the second region's
  result; the bias row is the bias vector laid as one row. And the result buffer after the run is the third region's result.
-/
import proofs.«176108_j55224689492023_2_alg».proof.Proof.KernelIdeal_Args
import proofs.«176108_j55224689492023_2_alg».proof.Proof.KernelIdeal_Value0b
import proofs.«176108_j55224689492023_2_alg».proof.Proof.KernelIdeal_Value1
import proofs.«176108_j55224689492023_2_alg».proof.Proof.KernelIdeal_Value2

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- The scale column: the first region's result row, transposed. -/
theorem V2r_v1 (c : Dev nD) :
    V2r m c main_v1 = transpose S8192x1 [1, 0] (G0 (V0r m) c) transposes_S1x8192_S8192x1_1_0 := by
  show StableHlo.after hostOps1 (W1 m c) (Proc.devRef .tc main_v1) = _
  after_results
  show transpose S8192x1 [1, 0] (W1 m c (Proc.devRef .tc main_v0)) _ = _
  rw [show W1 m c (Proc.devRef .tc main_v0) = (dat0 (V0r m) c).arrAt 1 cfg0.N from W1_arr m c 1, final0]

theorem V4r_v1 (c : Dev nD) :
    V4r m c main_v1 = transpose S8192x1 [1, 0] (G0 (V0r m) c) transposes_S1x8192_S8192x1_1_0 :=
  (W4_of m c main_v1 (by decide)).trans ((W3_arr m c 2).trans (((dat1 (V2r m) c).arrAt_in 2 rfl _).trans ((A_eq1 (V2r m) c 2).trans (V2r_v1 m c))))
/-- The scaled features: the second region's result. -/
theorem V4r_v2 (c : Dev nD) : V4r m c main_v2 = G1 (V2r m) c :=
  (W4_of m c main_v2 (by decide)).trans ((W3_arr m c 3).trans (final1 (V2r m) c))
/-- The bias laid as one row. -/
theorem V4r_v3 (c : Dev nD) :
    V4r m c main_v3 = shapeCast S1x128 (m ((c : Thread nD τ).loc main_arg3)) shapeCasts_S128_S1x128 := by
  show StableHlo.after hostOps2 (W3 m c) (Proc.devRef .tc main_v3) = _
  after_results
  show shapeCast S1x128 (W3 m c (Proc.devRef .tc main_arg3)) _ = _
  rw [W3_arg3]

/-- The result buffer after the run. -/
theorem W5_result (c : Dev nD) : W5 m c (Proc.devRef .tc main_v4) = G2 (V4r m) c :=
  (W5_v4 m c).trans (final2 (V4r m) c)

end Cert.KernelIdeal.Hand

end
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.KernelIdeal_Ideal0.lean ====
/-
  The first kernel region's result over the extended reals: entry (0, j) of the row it writes is the square root of the
  sum, over all 8192 rows i, of the adjacency entries (i, j). The kernel adds the column sums of the eight row blocks in
  order, each block's sum started from zero; on the extended reals addition is associative and commutative and zero is
  neutral, so the ordered chain is the plain sum over all rows — no finiteness is needed.
-/
import proofs.«176108_j55224689492023_2_alg».proof.Proof.KernelIdeal_Value0b
import proofs.«176108_j55224689492023_2_alg».proof.Proof.LibMatrixReduce
import proofs.«176108_j55224689492023_2_alg».proof.Proof.LibBlockSum
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.BlockSum

variable (V : (c : Dev nD) → (b : Ref sig .tc) → Buf (Elt Ideal) ((c : Thread nD τ).loc b))

/-! ## The body's arithmetic at an index -/

theorem pay1_0_apply (j : S1x1024.Idx) : (k0_pay1 (F := Ideal)) j = 0 := by
  unfold k0_pay1
  rw [shapeCast_self]
  exact Ideal.ofBits_zero_f32

theorem pay2_0_apply (v3 : Vec Ideal S1x1024 .f32) (v4 : Vec Ideal S1024x1024 .f32) (k : Fin 1024) :
    k0_pay2 v3 v4 (ix2 (0 : Fin 1) k) = v3 (ix2 (0 : Fin 1) k) + ∑ p : Fin 1024, v4 (ix2 p k) := by
  unfold k0_pay2
  (try dsimp only)
  rw [shapeCast_self, addf_apply, shapeCast_a_1a_apply]
  exact congrArg (v3 (ix2 (0 : Fin 1) k) + ·) (Cert.MatrixReduce.colSum_apply v4 _ _ _ k)

theorem pay3_0_apply (v : Vec Ideal S1x1024 .f32) (j : S1x1024.Idx) : k0_pay3 v j = Ideal.sqrt (v j) := rfl

/-! ## The adjacency block a point reads -/

theorem idx0_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

theorem iblk0_0_apply (c : Dev nD) (t : Fin cfg0.N) (p k : Fin 1024) :
    (iblk0 V c 0 t : Vec Ideal S1024x1024 .f32) (ix2 p k)
      = at2 (V c main_arg0 : S8192x8192.Idx → EReal) (1024 * (t.val % 8) + p.val) (1024 * (t.val / 8) + k.val) := by
  have hN : cfg0.N = 64 := N_0
  have ht : t.val < 64 := lt_of_lt_of_eq t.isLt hN
  have h1 : 1024 * (t.val % 8) + p.val < 8192 := by have := p.isLt; omega
  have h2 : 1024 * (t.val / 8) + k.val < 8192 := by have := k.isLt; omega
  rw [at2_of_lt _ h1 h2]
  unfold iblk0
  rw [View.read_apply]
  show V c main_arg0 (((cfg0.win 0).blk t).view.emb (ix2 p k)) = V c main_arg0 _
  refine congrArg (V c main_arg0) (funext fun a => Fin.ext ?_)
  match a with
  | ⟨0, _⟩ => show win0_0.index t 0 * 1024 + 1 * p.val = 1024 * (t.val % 8) + p.val; rw [(idx0_0 t).1]; omega
  | ⟨1, _⟩ => show win0_0.index t 1 * 1024 + 1 * k.val = 1024 * (t.val / 8) + k.val; rw [(idx0_0 t).2]; omega

/-! ## The accumulator in closed form -/

theorem acc0_apply (c : Dev nD) : ∀ (n : ℕ) (h : n < cfg0.N) (k : Fin 1024),
    acc0 V c n h (ix2 (0 : Fin 1) k)
      = ∑ r ∈ Finset.range (n % 8 + 1), ∑ p : Fin 1024,
          at2 (V c main_arg0 : S8192x8192.Idx → EReal) (1024 * r + p.val) (1024 * (n / 8) + k.val)
  | 0, h, k => by
    rw [acc0, pay2_0_apply, pay1_0_apply, zero_add]
    simp only [iblk0_0_apply, Nat.zero_mod, Nat.zero_div, Finset.range_one, Finset.sum_singleton, Nat.mul_zero, Nat.zero_add]
  | n + 1, h, k => by
    rw [acc0]
    by_cases h0 : (n + 1) % 8 = 0
    · rw [if_pos h0, pay2_0_apply, pay1_0_apply, zero_add, h0]
      simp only [iblk0_0_apply, Nat.zero_add, Finset.range_one, Finset.sum_singleton, Nat.mul_zero, h0]
    · rw [if_neg h0, pay2_0_apply, acc0_apply c n (Nat.lt_of_succ_lt h) k]
      have e1 : (n + 1) % 8 = n % 8 + 1 := by omega
      have e2 : (n + 1) / 8 = n / 8 := by omega
      simp only [iblk0_0_apply]
      rw [e1, e2]
      conv_rhs => rw [Finset.sum_range_succ]

/-! ## The result row -/

/-- Entry (0, j) of the first region's result: the square root of column j's sum over all rows. -/
theorem G0_apply (c : Dev nD) (u : Fin 1) (j : Fin 8192) :
    G0 V c (ix2 u j) = Ideal.sqrt (∑ i : Fin 8192, asFn S8192x8192 (V c main_arg0) (ix2 i j)) := by
  have hN : cfg0.N = 64 := N_0
  have hj : j.val < 8192 := j.isLt
  unfold G0
  rw [pay3_0_apply]
  refine congrArg Ideal.sqrt ?_
  have hlt : 8 * (j.val / 1024) + 7 < cfg0.N := by rw [hN]; omega
  refine (acc0_apply V c (8 * (j.val / 1024) + 7) hlt ⟨j.val % 1024, Nat.mod_lt _ (by decide)⟩).trans ?_
  have e1 : (8 * (j.val / 1024) + 7) % 8 + 1 = 8 := by omega
  have e2 : (8 * (j.val / 1024) + 7) / 8 = j.val / 1024 := by omega
  rw [e1, e2]
  have e3 : 1024 * (j.val / 1024) + j.val % 1024 = j.val := Nat.div_add_mod _ _
  show ∑ r ∈ Finset.range 8, ∑ p : Fin 1024, at2 (V c main_arg0 : S8192x8192.Idx → EReal) (1024 * r + p.val) (1024 * (j.val / 1024) + j.val % 1024) = _
  rw [e3, sum_range_blocks 8 1024 (fun i => at2 (V c main_arg0 : S8192x8192.Idx → EReal) i j.val) (rfl : 8 * 1024 = 8192)]
  exact Finset.sum_congr rfl fun i _ => at2_ix2 _ i j

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.KernelIdeal_Ideal1.lean ====
/-
  The second kernel region's result over the extended reals: entry (i, c) is the scale column's entry i times the sum over
  the 256 features f of feature (i, f) times weight (f, c) — the row block that holds row i computes that row's whole
  contraction, into a zero accumulator.
-/
import proofs.«176108_j55224689492023_2_alg».proof.Proof.KernelIdeal_Value1
import proofs.«176108_j55224689492023_2_alg».proof.Proof.LibPlainMatmul
import proofs.«176108_j55224689492023_2_alg».proof.Proof.LibColumnLayout
import proofs.«176108_j55224689492023_2_alg».proof.Proof.LibBlockSum
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.BlockSum

variable (V : (c : Dev nD) → (b : Ref sig .tc) → Buf (Elt Ideal) ((c : Thread nD τ).loc b))

theorem pay1_1_apply (x0 : FVec Ideal S1024x256 .f32) (x1 : FVec Ideal S256x128 .f32) (x2 : FVec Ideal S1024x1 .f32)
    (p : Fin 1024) (cc : Fin 128) :
    k1_pay1 x0 x1 x2 (ix2 p cc) = x2 (ix2 p (0 : Fin 1)) * ∑ f : Fin 256, x0 (ix2 p f) * x1 (ix2 f cc) := by
  unfold k1_pay1
  (try dsimp only)
  rw [mulf_apply, Cert.ColumnLayout.broadcastTo_a1_ab_apply, shapeCast_self]
  exact congrArg (x2 (ix2 p (0 : Fin 1)) * ·) (Cert.PlainMatmul.plain_apply (φ₁ := .f32) (φ₂ := .f32) x0 x1 p cc)

theorem idx1_in : ∀ t : Fin cfg1.N, (win1_0.index t 0 = t.val ∧ win1_0.index t 1 = 0)
    ∧ (win1_1.index t 0 = 0 ∧ win1_1.index t 1 = 0) ∧ (win1_2.index t 0 = t.val ∧ win1_2.index t 1 = 0) :=
  (by decide +kernel : ∀ t : Fin grid1.N, (win1_0.index t 0 = t.val ∧ win1_0.index t 1 = 0)
    ∧ (win1_1.index t 0 = 0 ∧ win1_1.index t 1 = 0) ∧ (win1_2.index t 0 = t.val ∧ win1_2.index t 1 = 0))

theorem iblk1_0_apply (c : Dev nD) (t : Fin cfg1.N) (p : Fin 1024) (f : Fin 256) :
    (iblk1 V c 0 t : Vec Ideal S1024x256 .f32) (ix2 p f)
      = at2 (V c main_arg1 : S8192x256.Idx → EReal) (1024 * t.val + p.val) f.val := by
  have hN : cfg1.N = 8 := N_1
  have ht : t.val < 8 := lt_of_lt_of_eq t.isLt hN
  have h1 : 1024 * t.val + p.val < 8192 := by have := p.isLt; omega
  rw [at2_of_lt _ h1 f.isLt]
  unfold iblk1
  rw [View.read_apply]
  show V c main_arg1 (((cfg1.win 0).blk t).view.emb (ix2 p f)) = V c main_arg1 _
  refine congrArg (V c main_arg1) (funext fun a => Fin.ext ?_)
  match a with
  | ⟨0, _⟩ => show win1_0.index t 0 * 1024 + 1 * p.val = 1024 * t.val + p.val; rw [(idx1_in t).1.1]; omega
  | ⟨1, _⟩ => show win1_0.index t 1 * 256 + 1 * f.val = f.val; rw [(idx1_in t).1.2]; omega

theorem iblk1_1_apply (c : Dev nD) (t : Fin cfg1.N) (f : Fin 256) (cc : Fin 128) :
    (iblk1 V c 1 t : Vec Ideal S256x128 .f32) (ix2 f cc) = asFn S256x128 (V c main_arg2) (ix2 f cc) := by
  unfold iblk1
  rw [View.read_apply]
  show V c main_arg2 (((cfg1.win 1).blk t).view.emb (ix2 f cc)) = V c main_arg2 _
  refine congrArg (V c main_arg2) (funext fun a => Fin.ext ?_)
  match a with
  | ⟨0, _⟩ => show win1_1.index t 0 * 256 + 1 * f.val = f.val; rw [(idx1_in t).2.1.1]; omega
  | ⟨1, _⟩ => show win1_1.index t 1 * 128 + 1 * cc.val = cc.val; rw [(idx1_in t).2.1.2]; omega

theorem iblk1_2_apply (c : Dev nD) (t : Fin cfg1.N) (p : Fin 1024) (u : Fin 1) :
    (iblk1 V c 2 t : Vec Ideal S1024x1 .f32) (ix2 p u)
      = at2 (V c main_v1 : S8192x1.Idx → EReal) (1024 * t.val + p.val) 0 := by
  have hN : cfg1.N = 8 := N_1
  have ht : t.val < 8 := lt_of_lt_of_eq t.isLt hN
  have h1 : 1024 * t.val + p.val < 8192 := by have := p.isLt; omega
  rw [at2_of_lt _ h1 (by decide : 0 < 1)]
  unfold iblk1
  rw [View.read_apply]
  show V c main_v1 (((cfg1.win 2).blk t).view.emb (ix2 p u)) = V c main_v1 _
  refine congrArg (V c main_v1) (funext fun a => Fin.ext ?_)
  match a with
  | ⟨0, _⟩ => show win1_2.index t 0 * 1024 + 1 * p.val = 1024 * t.val + p.val; rw [(idx1_in t).2.2.1]; omega
  | ⟨1, _⟩ => show win1_2.index t 1 * 1 + 1 * u.val = 0; rw [(idx1_in t).2.2.2]; omega

/-- What point `t` writes at (p, c). -/
theorem blk1val_apply (c : Dev nD) (t : Fin cfg1.N) (p : Fin 1024) (cc : Fin 128) :
    blk1val V c t (ix2 p cc)
      = at2 (V c main_v1 : S8192x1.Idx → EReal) (1024 * t.val + p.val) 0
        * ∑ f : Fin 256, at2 (V c main_arg1 : S8192x256.Idx → EReal) (1024 * t.val + p.val) f.val * asFn S256x128 (V c main_arg2) (ix2 f cc) := by
  unfold blk1val
  rw [pay1_1_apply]
  simp only [iblk1_0_apply, iblk1_1_apply, iblk1_2_apply]

/-- Entry (i, c) of the scaled features. -/
theorem G1_apply (c : Dev nD) (i : Fin 8192) (cc : Fin 128) :
    G1 V c (ix2 i cc)
      = asFn S8192x1 (V c main_v1) (ix2 i (0 : Fin 1))
        * ∑ f : Fin 256, asFn S8192x256 (V c main_arg1) (ix2 i f) * asFn S256x128 (V c main_arg2) (ix2 f cc) := by
  have hi : i.val < 8192 := i.isLt
  have hN : cfg1.N = 8 := N_1
  have hlt : i.val / 1024 < cfg1.N := by rw [hN]; omega
  have e3 : 1024 * (i.val / 1024) + i.val % 1024 = i.val := Nat.div_add_mod _ _
  refine (blk1val_apply V c ⟨i.val / 1024, hlt⟩ ⟨i.val % 1024, Nat.mod_lt _ (by decide)⟩ cc).trans ?_
  show at2 (V c main_v1 : S8192x1.Idx → EReal) (1024 * (i.val / 1024) + i.val % 1024) 0
      * ∑ f : Fin 256, at2 (V c main_arg1 : S8192x256.Idx → EReal) (1024 * (i.val / 1024) + i.val % 1024) f.val * asFn S256x128 (V c main_arg2) (ix2 f cc) = _
  rw [e3, at2_of_lt (V c main_v1 : S8192x1.Idx → EReal) hi (by decide : 0 < 1)]
  refine congrArg₂ (· * ·) rfl (Finset.sum_congr rfl fun f _ => ?_)
  rw [at2_ix2 (V c main_arg1 : S8192x256.Idx → EReal) i f]

end Cert.KernelIdeal.Hand

end
-- ==== Proof.LibContractFirstAxis.lean ====
/-
  Two matrix products whose LEFT operand is contracted on its first axis, read at coordinates.

  • `[K, M] × [K, N] → [M, N]`, both operands contracted on their first axis (no batch axis): accumulated into the
    zero matrix, the entry `(r, c)` of the result is `Σ_k lhs (k, r) · rhs (k, c)` on the extended reals — column `r`
    of the left operand against column `c` of the right one, the product `Aᵀ · B` with no transpose ever formed
    (`bothFirst_apply`).
  • `[K, M] × [N, K] → [M, N]`, the left operand contracted on its first axis and the right one on its second:
    the entry `(r, c)` is `Σ_k lhs (k, r) · rhs (c, k)` — column `r` of the left operand against row `c` of the
    right one, the product `Aᵀ · Bᵀ` (`firstSecond_apply`).

  Both hold at any extents; the one contraction coordinate `k` runs over `Fin K`.
-/
import Idealize.ShloMosaic.Lib.ValueIdx
import Idealize.ShloMosaic.PureOps.Ideal.Laws

namespace Cert.ContractFirstAxis

open Idealize.ShloMosaic Idealize.ShloMosaic.ValueIdx

/-- `<[0], [0], [1], [1], [0, 1, 1, 1], [], []>`: `K×M` by `K×N`, each operand contracted on its first axis. -/
def bothFirst (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- `<[0], [1], [1], [0], [0, 1, 1, 0], [], []>`: `K×M` by `N×K`, the left operand contracted on its first axis, the
    right one on its second. -/
def firstSecond (K M N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

variable {K M N : ℕ}

/-! ## Both operands contracted on their first axis -/

/-- The left operand's column coordinate is the result's row coordinate. -/
theorem bothFirst_lhs_col (j : (⟨2, ![M, N]⟩ : Shape).Idx) (q : (bothFirst K M N).contr.Idx) :
    ((bothFirst K M N).lhsIdx j q (1 : Fin (⟨2, ![K, M]⟩ : Shape).rank)).val = (j 0).val := by
  unfold DotDims.lhsIdx
  rw [dif_neg (show ¬(1 : Fin (⟨2, ![K, M]⟩ : Shape).rank) ∈ (bothFirst K M N).lhsBatch from List.not_mem_nil),
    dif_pos (show (1 : Fin (⟨2, ![K, M]⟩ : Shape).rank) ∈ (bothFirst K M N).lhsNonContracting from
      List.mem_singleton.mpr rfl)]
  rfl

/-- The right operand's column coordinate is the result's column coordinate. -/
theorem bothFirst_rhs_col (j : (⟨2, ![M, N]⟩ : Shape).Idx) (q : (bothFirst K M N).contr.Idx) :
    ((bothFirst K M N).rhsIdx j q (1 : Fin (⟨2, ![K, N]⟩ : Shape).rank)).val = (j 1).val := by
  unfold DotDims.rhsIdx
  rw [dif_neg (show ¬(1 : Fin (⟨2, ![K, N]⟩ : Shape).rank) ∈ (bothFirst K M N).rhsBatch from List.not_mem_nil),
    dif_pos (show (1 : Fin (⟨2, ![K, N]⟩ : Shape).rank) ∈ (bothFirst K M N).rhsNonContracting from
      List.mem_singleton.mpr rfl)]
  rfl

/-- The product into the zero matrix, at `(r, c)`: the sum over `k` of `lhs (k, r) · rhs (k, c)`. -/
theorem bothFirst_apply {φ₁ φ₂ : FTy} (lhs : FVec Ideal ⟨2, ![K, M]⟩ φ₁) (rhs : FVec Ideal ⟨2, ![K, N]⟩ φ₂)
    (r : Fin M) (c : Fin N) :
    FloatOps.matmul (bothFirst K M N) none lhs rhs (constant ⟨2, ![M, N]⟩ .f32 0x00000000#32) (ix2 r c)
      = ∑ k : Fin K, lhs (ix2 k r) * rhs (ix2 k c) := by
  rw [Ideal.matmul_constant_zero_apply, ← Equiv.sum_comp (contrEquiv1 (bothFirst K M N) K rfl rfl).symm]
  refine Finset.sum_congr rfl fun k _ => ?_
  have hk := contrEquiv1_symm_val (bothFirst K M N) K rfl rfl k
  have el : (bothFirst K M N).lhsIdx (ix2 r c) ((contrEquiv1 (bothFirst K M N) K rfl rfl).symm k) = ix2 k r :=
    funext fun a => Fin.ext (by
      match a with
      | ⟨0, _⟩ => exact ((bothFirst K M N).lhsIdx_val_of_single rfl _ _).trans hk
      | ⟨1, _⟩ => exact bothFirst_lhs_col _ _)
  have er : (bothFirst K M N).rhsIdx (ix2 r c) ((contrEquiv1 (bothFirst K M N) K rfl rfl).symm k) = ix2 k c :=
    funext fun a => Fin.ext (by
      match a with
      | ⟨0, _⟩ => exact ((bothFirst K M N).rhsIdx_val_of_single rfl _ _).trans hk
      | ⟨1, _⟩ => exact bothFirst_rhs_col _ _)
  rw [el, er]

/-! ## The left operand contracted on its first axis, the right one on its second -/

/-- The left operand's column coordinate is the result's row coordinate. -/
theorem firstSecond_lhs_col (j : (⟨2, ![M, N]⟩ : Shape).Idx) (q : (firstSecond K M N).contr.Idx) :
    ((firstSecond K M N).lhsIdx j q (1 : Fin (⟨2, ![K, M]⟩ : Shape).rank)).val = (j 0).val := by
  unfold DotDims.lhsIdx
  rw [dif_neg (show ¬(1 : Fin (⟨2, ![K, M]⟩ : Shape).rank) ∈ (firstSecond K M N).lhsBatch from List.not_mem_nil),
    dif_pos (show (1 : Fin (⟨2, ![K, M]⟩ : Shape).rank) ∈ (firstSecond K M N).lhsNonContracting from
      List.mem_singleton.mpr rfl)]
  rfl

/-- The right operand's row coordinate is the result's column coordinate. -/
theorem firstSecond_rhs_row (j : (⟨2, ![M, N]⟩ : Shape).Idx) (q : (firstSecond K M N).contr.Idx) :
    ((firstSecond K M N).rhsIdx j q (0 : Fin (⟨2, ![N, K]⟩ : Shape).rank)).val = (j 1).val := by
  unfold DotDims.rhsIdx
  rw [dif_neg (show ¬(0 : Fin (⟨2, ![N, K]⟩ : Shape).rank) ∈ (firstSecond K M N).rhsBatch from List.not_mem_nil),
    dif_pos (show (0 : Fin (⟨2, ![N, K]⟩ : Shape).rank) ∈ (firstSecond K M N).rhsNonContracting from
      List.mem_singleton.mpr rfl)]
  rfl

/-- The product into the zero matrix, at `(r, c)`: the sum over `k` of `lhs (k, r) · rhs (c, k)`. -/
theorem firstSecond_apply {φ₁ φ₂ : FTy} (lhs : FVec Ideal ⟨2, ![K, M]⟩ φ₁) (rhs : FVec Ideal ⟨2, ![N, K]⟩ φ₂)
    (r : Fin M) (c : Fin N) :
    FloatOps.matmul (firstSecond K M N) none lhs rhs (constant ⟨2, ![M, N]⟩ .f32 0x00000000#32) (ix2 r c)
      = ∑ k : Fin K, lhs (ix2 k r) * rhs (ix2 c k) := by
  rw [Ideal.matmul_constant_zero_apply, ← Equiv.sum_comp (contrEquiv1 (firstSecond K M N) K rfl rfl).symm]
  refine Finset.sum_congr rfl fun k _ => ?_
  have hk := contrEquiv1_symm_val (firstSecond K M N) K rfl rfl k
  have el : (firstSecond K M N).lhsIdx (ix2 r c) ((contrEquiv1 (firstSecond K M N) K rfl rfl).symm k) = ix2 k r :=
    funext fun a => Fin.ext (by
      match a with
      | ⟨0, _⟩ => exact ((firstSecond K M N).lhsIdx_val_of_single rfl _ _).trans hk
      | ⟨1, _⟩ => exact firstSecond_lhs_col _ _)
  have er : (firstSecond K M N).rhsIdx (ix2 r c) ((contrEquiv1 (firstSecond K M N) K rfl rfl).symm k) = ix2 c k :=
    funext fun a => Fin.ext (by
      match a with
      | ⟨0, _⟩ => exact firstSecond_rhs_row _ _
      | ⟨1, _⟩ => exact ((firstSecond K M N).rhsIdx_val_of_single rfl _ _).trans hk)
  rw [el, er]

end Cert.ContractFirstAxis
-- ==== Proof.KernelIdeal_Ideal2.lean ====
/-
  The third kernel region's result over the extended reals. At every grid point the accumulator receives, for each of
  its entries (p, c), the two sums over the point's 1024 columns k: adjacency (row p, column k) times scaled feature (k, c),
  and adjacency (row k, column p) times scaled feature (k, c). Added over the eight column blocks in order — on the
  extended reals in any order — these are the two sums over all 8192 columns. The finalisation adds the row's own scaled
  feature, multiplies by the row's scale and adds the bias.
-/
import proofs.«176108_j55224689492023_2_alg».proof.Proof.KernelIdeal_Value2
import proofs.«176108_j55224689492023_2_alg».proof.Proof.LibPlainMatmul
import proofs.«176108_j55224689492023_2_alg».proof.Proof.LibContractFirstAxis
import proofs.«176108_j55224689492023_2_alg».proof.Proof.LibColumnLayout
import proofs.«176108_j55224689492023_2_alg».proof.Proof.LibBlockSum
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.BlockSum

variable (V : (c : Dev nD) → (b : Ref sig .tc) → Buf (Elt Ideal) ((c : Thread nD τ).loc b))

/-! ## The body's arithmetic at an index -/

theorem pay1_2_apply (j : S1024x128.Idx) : (k2_pay1 (F := Ideal)) j = 0 := by
  unfold k2_pay1
  rw [shapeCast_self]
  exact Ideal.ofBits_zero_f32

theorem pay2_2_apply (v3 v4 : FVec Ideal S1024x1024 .f32) (v5 v9 : FVec Ideal S1024x128 .f32) (p : Fin 1024) (cc : Fin 128) :
    k2_pay2 v3 v4 v5 v9 (ix2 p cc)
      = v9 (ix2 p cc) + ((∑ k : Fin 1024, v3 (ix2 p k) * v5 (ix2 k cc)) + ∑ k : Fin 1024, v4 (ix2 k p) * v5 (ix2 k cc)) := by
  unfold k2_pay2
  (try dsimp only)
  rw [shapeCast_self, shapeCast_self, addf_apply, addf_apply]
  refine congrArg (v9 (ix2 p cc) + ·) ?_
  exact congrArg₂ (· + ·) (Cert.PlainMatmul.plain_apply (φ₁ := .f32) (φ₂ := .f32) v3 v5 p cc) (Cert.ContractFirstAxis.bothFirst_apply (φ₁ := .f32) (φ₂ := .f32) v4 v5 p cc)

theorem pay3_2_apply (v18 v19 : FVec Ideal S1024x128 .f32) (v22 : FVec Ideal S1024x1 .f32) (v26 : FVec Ideal S1x128 .f32)
    (p : Fin 1024) (cc : Fin 128) :
    k2_pay3 v18 v19 v22 v26 (ix2 p cc)
      = v22 (ix2 p (0 : Fin 1)) * (v18 (ix2 p cc) + v19 (ix2 p cc)) + v26 (ix2 (0 : Fin 1) cc) := by
  unfold k2_pay3
  (try dsimp only)
  rw [addf_apply, mulf_apply, addf_apply, shapeCast_self, shapeCast_self, shapeCast_self,
    Cert.ColumnLayout.broadcastTo_a1_ab_apply, broadcastTo_1b_ab_apply]

/-! ## The blocks a point reads -/

theorem idx2_in : ∀ t : Fin cfg2.N,
    (win2_0.index t 0 = t.val / 8 ∧ win2_0.index t 1 = t.val % 8) ∧ (win2_1.index t 0 = t.val % 8 ∧ win2_1.index t 1 = t.val / 8)
    ∧ (win2_2.index t 0 = t.val % 8 ∧ win2_2.index t 1 = 0) ∧ (win2_3.index t 0 = t.val / 8 ∧ win2_3.index t 1 = 0)
    ∧ (win2_4.index t 0 = t.val / 8 ∧ win2_4.index t 1 = 0) ∧ (win2_5.index t 0 = 0 ∧ win2_5.index t 1 = 0) :=
  (by decide +kernel : ∀ t : Fin grid2.N,
    (win2_0.index t 0 = t.val / 8 ∧ win2_0.index t 1 = t.val % 8) ∧ (win2_1.index t 0 = t.val % 8 ∧ win2_1.index t 1 = t.val / 8)
    ∧ (win2_2.index t 0 = t.val % 8 ∧ win2_2.index t 1 = 0) ∧ (win2_3.index t 0 = t.val / 8 ∧ win2_3.index t 1 = 0)
    ∧ (win2_4.index t 0 = t.val / 8 ∧ win2_4.index t 1 = 0) ∧ (win2_5.index t 0 = 0 ∧ win2_5.index t 1 = 0))

theorem iblk2_0_apply (c : Dev nD) (t : Fin cfg2.N) (p k : Fin 1024) :
    (iblk2 V c 0 t : Vec Ideal S1024x1024 .f32) (ix2 p k)
      = at2 (V c main_arg0 : S8192x8192.Idx → EReal) (1024 * (t.val / 8) + p.val) (1024 * (t.val % 8) + k.val) := by
  have hN : cfg2.N = 64 := N_2
  have ht : t.val < 64 := lt_of_lt_of_eq t.isLt hN
  have h1 : 1024 * (t.val / 8) + p.val < 8192 := by have := p.isLt; omega
  have h2 : 1024 * (t.val % 8) + k.val < 8192 := by have := k.isLt; omega
  rw [at2_of_lt _ h1 h2]
  unfold iblk2
  rw [View.read_apply]
  show V c main_arg0 (((cfg2.win 0).blk t).view.emb (ix2 p k)) = V c main_arg0 _
  refine congrArg (V c main_arg0) (funext fun a => Fin.ext ?_)
  match a with
  | ⟨0, _⟩ => show win2_0.index t 0 * 1024 + 1 * p.val = 1024 * (t.val / 8) + p.val; rw [(idx2_in t).1.1]; omega
  | ⟨1, _⟩ => show win2_0.index t 1 * 1024 + 1 * k.val = 1024 * (t.val % 8) + k.val; rw [(idx2_in t).1.2]; omega

theorem iblk2_1_apply (c : Dev nD) (t : Fin cfg2.N) (k p : Fin 1024) :
    (iblk2 V c 1 t : Vec Ideal S1024x1024 .f32) (ix2 k p)
      = at2 (V c main_arg0 : S8192x8192.Idx → EReal) (1024 * (t.val % 8) + k.val) (1024 * (t.val / 8) + p.val) := by
  have hN : cfg2.N = 64 := N_2
  have ht : t.val < 64 := lt_of_lt_of_eq t.isLt hN
  have h1 : 1024 * (t.val % 8) + k.val < 8192 := by have := k.isLt; omega
  have h2 : 1024 * (t.val / 8) + p.val < 8192 := by have := p.isLt; omega
  rw [at2_of_lt _ h1 h2]
  unfold iblk2
  rw [View.read_apply]
  show V c main_arg0 (((cfg2.win 1).blk t).view.emb (ix2 k p)) = V c main_arg0 _
  refine congrArg (V c main_arg0) (funext fun a => Fin.ext ?_)
  match a with
  | ⟨0, _⟩ => show win2_1.index t 0 * 1024 + 1 * k.val = 1024 * (t.val % 8) + k.val; rw [(idx2_in t).2.1.1]; omega
  | ⟨1, _⟩ => show win2_1.index t 1 * 1024 + 1 * p.val = 1024 * (t.val / 8) + p.val; rw [(idx2_in t).2.1.2]; omega

theorem iblk2_2_apply (c : Dev nD) (t : Fin cfg2.N) (k : Fin 1024) (cc : Fin 128) :
    (iblk2 V c 2 t : Vec Ideal S1024x128 .f32) (ix2 k cc)
      = at2 (V c main_v2 : S8192x128.Idx → EReal) (1024 * (t.val % 8) + k.val) cc.val := by
  have hN : cfg2.N = 64 := N_2
  have ht : t.val < 64 := lt_of_lt_of_eq t.isLt hN
  have h1 : 1024 * (t.val % 8) + k.val < 8192 := by have := k.isLt; omega
  rw [at2_of_lt _ h1 cc.isLt]
  unfold iblk2
  rw [View.read_apply]
  show V c main_v2 (((cfg2.win 2).blk t).view.emb (ix2 k cc)) = V c main_v2 _
  refine congrArg (V c main_v2) (funext fun a => Fin.ext ?_)
  match a with
  | ⟨0, _⟩ => show win2_2.index t 0 * 1024 + 1 * k.val = 1024 * (t.val % 8) + k.val; rw [(idx2_in t).2.2.1.1]; omega
  | ⟨1, _⟩ => show win2_2.index t 1 * 128 + 1 * cc.val = cc.val; rw [(idx2_in t).2.2.1.2]; omega

theorem iblk2_3_apply (c : Dev nD) (t : Fin cfg2.N) (p : Fin 1024) (cc : Fin 128) :
    (iblk2 V c 3 t : Vec Ideal S1024x128 .f32) (ix2 p cc)
      = at2 (V c main_v2 : S8192x128.Idx → EReal) (1024 * (t.val / 8) + p.val) cc.val := by
  have hN : cfg2.N = 64 := N_2
  have ht : t.val < 64 := lt_of_lt_of_eq t.isLt hN
  have h1 : 1024 * (t.val / 8) + p.val < 8192 := by have := p.isLt; omega
  rw [at2_of_lt _ h1 cc.isLt]
  unfold iblk2
  rw [View.read_apply]
  show V c main_v2 (((cfg2.win 3).blk t).view.emb (ix2 p cc)) = V c main_v2 _
  refine congrArg (V c main_v2) (funext fun a => Fin.ext ?_)
  match a with
  | ⟨0, _⟩ => show win2_3.index t 0 * 1024 + 1 * p.val = 1024 * (t.val / 8) + p.val; rw [(idx2_in t).2.2.2.1.1]; omega
  | ⟨1, _⟩ => show win2_3.index t 1 * 128 + 1 * cc.val = cc.val; rw [(idx2_in t).2.2.2.1.2]; omega

theorem iblk2_4_apply (c : Dev nD) (t : Fin cfg2.N) (p : Fin 1024) (u : Fin 1) :
    (iblk2 V c 4 t : Vec Ideal S1024x1 .f32) (ix2 p u)
      = at2 (V c main_v1 : S8192x1.Idx → EReal) (1024 * (t.val / 8) + p.val) 0 := by
  have hN : cfg2.N = 64 := N_2
  have ht : t.val < 64 := lt_of_lt_of_eq t.isLt hN
  have h1 : 1024 * (t.val / 8) + p.val < 8192 := by have := p.isLt; omega
  rw [at2_of_lt _ h1 (by decide : 0 < 1)]
  unfold iblk2
  rw [View.read_apply]
  show V c main_v1 (((cfg2.win 4).blk t).view.emb (ix2 p u)) = V c main_v1 _
  refine congrArg (V c main_v1) (funext fun a => Fin.ext ?_)
  match a with
  | ⟨0, _⟩ => show win2_4.index t 0 * 1024 + 1 * p.val = 1024 * (t.val / 8) + p.val; rw [(idx2_in t).2.2.2.2.1.1]; omega
  | ⟨1, _⟩ => show win2_4.index t 1 * 1 + 1 * u.val = 0; rw [(idx2_in t).2.2.2.2.1.2]; omega

theorem iblk2_5_apply (c : Dev nD) (t : Fin cfg2.N) (u : Fin 1) (cc : Fin 128) :
    (iblk2 V c 5 t : Vec Ideal S1x128 .f32) (ix2 u cc) = asFn S1x128 (V c main_v3) (ix2 (0 : Fin 1) cc) := by
  unfold iblk2
  rw [View.read_apply]
  show V c main_v3 (((cfg2.win 5).blk t).view.emb (ix2 u cc)) = V c main_v3 _
  refine congrArg (V c main_v3) (funext fun a => Fin.ext ?_)
  match a with
  | ⟨0, _⟩ => show win2_5.index t 0 * 1 + 1 * u.val = 0; rw [(idx2_in t).2.2.2.2.2.1]; omega
  | ⟨1, _⟩ => show win2_5.index t 1 * 128 + 1 * cc.val = cc.val; rw [(idx2_in t).2.2.2.2.2.2]; omega

/-! ## The accumulator in closed form -/

/-- The contribution of column block `jb` to entry (p, c) of row block `ib`'s accumulator. -/
def term2 (c : Dev nD) (ib jb : ℕ) (p : Fin 1024) (cc : Fin 128) : EReal :=
  (∑ k : Fin 1024, at2 (V c main_arg0 : S8192x8192.Idx → EReal) (1024 * ib + p.val) (1024 * jb + k.val)
      * at2 (V c main_v2 : S8192x128.Idx → EReal) (1024 * jb + k.val) cc.val)
  + ∑ k : Fin 1024, at2 (V c main_arg0 : S8192x8192.Idx → EReal) (1024 * jb + k.val) (1024 * ib + p.val)
      * at2 (V c main_v2 : S8192x128.Idx → EReal) (1024 * jb + k.val) cc.val

theorem acc2_apply (c : Dev nD) : ∀ (n : ℕ) (h : n < cfg2.N) (p : Fin 1024) (cc : Fin 128),
    acc2 V c n h (ix2 p cc) = ∑ jb ∈ Finset.range (n % 8 + 1), term2 V c (n / 8) jb p cc
  | 0, h, p, cc => by
    rw [acc2, pay2_2_apply, pay1_2_apply, zero_add]
    simp only [iblk2_0_apply, iblk2_1_apply, iblk2_2_apply, Nat.zero_mod, Nat.zero_div, Finset.range_one, Finset.sum_singleton, Nat.zero_add, term2]
  | n + 1, h, p, cc => by
    rw [acc2]
    by_cases h0 : (n + 1) % 8 = 0
    · rw [if_pos h0, pay2_2_apply, pay1_2_apply, zero_add, h0]
      simp only [iblk2_0_apply, iblk2_1_apply, iblk2_2_apply, Nat.zero_add, Finset.range_one, Finset.sum_singleton, h0, term2]
    · rw [if_neg h0, pay2_2_apply, acc2_apply c n (Nat.lt_of_succ_lt h) p cc]
      have e1 : (n + 1) % 8 = n % 8 + 1 := by omega
      have e2 : (n + 1) / 8 = n / 8 := by omega
      simp only [iblk2_0_apply, iblk2_1_apply, iblk2_2_apply]
      rw [e1, e2]
      conv_rhs => rw [Finset.sum_range_succ]
      rfl

/-! ## The result -/

/-- What a last-column-block point `t` writes at (p, c). -/
theorem blk2val_apply (c : Dev nD) (t : Fin cfg2.N) (p : Fin 1024) (cc : Fin 128) :
    blk2val V c t (ix2 p cc)
      = at2 (V c main_v1 : S8192x1.Idx → EReal) (1024 * (t.val / 8) + p.val) 0
          * ((∑ jb ∈ Finset.range (t.val % 8 + 1), term2 V c (t.val / 8) jb p cc)
            + at2 (V c main_v2 : S8192x128.Idx → EReal) (1024 * (t.val / 8) + p.val) cc.val)
        + asFn S1x128 (V c main_v3) (ix2 (0 : Fin 1) cc) := by
  unfold blk2val
  rw [pay3_2_apply, acc2_apply]
  simp only [iblk2_3_apply, iblk2_4_apply, iblk2_5_apply]

/-- Entry (i, c) of the third region's result. -/
theorem G2_apply (c : Dev nD) (i : Fin 8192) (cc : Fin 128) :
    G2 V c (ix2 i cc)
      = asFn S8192x1 (V c main_v1) (ix2 i (0 : Fin 1))
          * (((∑ j : Fin 8192, asFn S8192x8192 (V c main_arg0) (ix2 i j) * asFn S8192x128 (V c main_v2) (ix2 j cc))
              + ∑ j : Fin 8192, asFn S8192x8192 (V c main_arg0) (ix2 j i) * asFn S8192x128 (V c main_v2) (ix2 j cc))
            + asFn S8192x128 (V c main_v2) (ix2 i cc))
        + asFn S1x128 (V c main_v3) (ix2 (0 : Fin 1) cc) := by
  have hi : i.val < 8192 := i.isLt
  have hN : cfg2.N = 64 := N_2
  have hlt : 8 * (i.val / 1024) + 7 < cfg2.N := by rw [hN]; omega
  have e1 : (8 * (i.val / 1024) + 7) % 8 + 1 = 8 := by omega
  have e2 : (8 * (i.val / 1024) + 7) / 8 = i.val / 1024 := by omega
  have e3 : 1024 * (i.val / 1024) + i.val % 1024 = i.val := Nat.div_add_mod _ _
  refine (blk2val_apply V c ⟨8 * (i.val / 1024) + 7, hlt⟩ ⟨i.val % 1024, Nat.mod_lt _ (by decide)⟩ cc).trans ?_
  show at2 (V c main_v1 : S8192x1.Idx → EReal) (1024 * ((8 * (i.val / 1024) + 7) / 8) + i.val % 1024) 0
      * ((∑ jb ∈ Finset.range ((8 * (i.val / 1024) + 7) % 8 + 1), term2 V c ((8 * (i.val / 1024) + 7) / 8) jb ⟨i.val % 1024, Nat.mod_lt _ (by decide)⟩ cc)
        + at2 (V c main_v2 : S8192x128.Idx → EReal) (1024 * ((8 * (i.val / 1024) + 7) / 8) + i.val % 1024) cc.val)
      + asFn S1x128 (V c main_v3) (ix2 (0 : Fin 1) cc) = _
  rw [e1, e2, e3, at2_of_lt (V c main_v1 : S8192x1.Idx → EReal) hi (by decide : 0 < 1), at2_ix2 (V c main_v2 : S8192x128.Idx → EReal) i cc]
  unfold term2
  rw [Finset.sum_add_distrib]
  show _ * (((∑ jb ∈ Finset.range 8, ∑ k : Fin 1024, at2 (V c main_arg0 : S8192x8192.Idx → EReal) (1024 * (i.val / 1024) + i.val % 1024) (1024 * jb + k.val) * at2 (V c main_v2 : S8192x128.Idx → EReal) (1024 * jb + k.val) cc.val)
      + ∑ jb ∈ Finset.range 8, ∑ k : Fin 1024, at2 (V c main_arg0 : S8192x8192.Idx → EReal) (1024 * jb + k.val) (1024 * (i.val / 1024) + i.val % 1024) * at2 (V c main_v2 : S8192x128.Idx → EReal) (1024 * jb + k.val) cc.val) + _) + _ = _
  rw [e3,
    sum_range_blocks 8 1024 (fun j => at2 (V c main_arg0 : S8192x8192.Idx → EReal) i.val j * at2 (V c main_v2 : S8192x128.Idx → EReal) j cc.val) (rfl : 8 * 1024 = 8192),
    sum_range_blocks 8 1024 (fun j => at2 (V c main_arg0 : S8192x8192.Idx → EReal) j i.val * at2 (V c main_v2 : S8192x128.Idx → EReal) j cc.val) (rfl : 8 * 1024 = 8192)]
  simp only [at2_ix2]
  rfl

end Cert.KernelIdeal.Hand

end
-- ==== Proof.RefValue.lean ====
/-
  The reference program's result over the extended reals, read at an index (i, c): with s(j) the square root of the sum
  of column j of the adjacency matrix and FW(j, c) the sum over the features f of feature (j, f) times weight (f, c),

      result (i, c) = Σ_j ( (s(i) · ((adj(i,j) + adj(j,i)) + [i = j])) · s(j) ) · FW(j, c)  +  bias(c).

  Each of the reference's twenty-four host operations is read at an index by the generated read-at-an-index lemmas; this
  module chains them and identifies the composed index functions with coordinates.
-/
import proofs.«176108_j55224689492023_2_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The identity matrix's entry, as the reference builds it: the equality bit of the row and column words, read as a number. -/
theorem eye_word (i j : Fin 8192) :
    (IntOp.cmpi .eq (IntOp.addi (BitVec.ofNat 32 i.val) 0#32) (BitVec.ofNat 32 j.val)).toNat = if i = j then 1 else 0 := by
  unfold IntOp.cmpi IntOp.addi
  rw [BitVec.add_zero]
  by_cases h : i = j
  · subst h; simp
  · have hne : (BitVec.ofNat 32 i.val == BitVec.ofNat 32 j.val) = false := by
      rw [beq_eq_false_iff_ne]
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e')
    rw [if_neg h]
    show (BitVec.ofBool (BitVec.ofNat 32 i.val == BitVec.ofNat 32 j.val)).toNat = 0
    rw [hne]; rfl

/-- The column scale: the square root of a column's sum. -/
def S (x0 : S8192x8192.Idx → EReal) (j : Fin 8192) : EReal := Ideal.sqrt (∑ i : Fin 8192, x0 (ix2 i j))

/-- The feature transform. -/
def FW (x1 : S8192x256.Idx → EReal) (x2 : S256x128.Idx → EReal) (j : Fin 8192) (cc : Fin 128) : EReal :=
  ∑ f : Fin 256, x1 (ix2 j f) * x2 (ix2 f cc)

theorem v1_apply (x0 : S8192x8192.Idx → EReal) (j : Fin 8192) : val_main_v1 (F := Ideal) x0 (ix1 j) = S x0 j := by
  rw [val_main_v1_apply, val_main_v0_apply, val_main_cst_apply]
  show Ideal.sqrt (Ideal.ofBits .f32 0x00000000#32 + _) = _
  rw [Ideal.ofBits_zero_f32, zero_add]
  unfold S
  refine congrArg Ideal.sqrt (Finset.sum_congr rfl fun k _ => congrArg x0 (funext fun a => Fin.ext ?_))
  match a with
  | ⟨0, _⟩ => rfl
  | ⟨1, _⟩ => rfl

theorem v17_apply (x1 : S8192x256.Idx → EReal) (x2 : S256x128.Idx → EReal) (j : Fin 8192) (cc : Fin 128) :
    val_main_v17 (F := Ideal) x1 x2 (ix2 j cc) = FW x1 x2 j cc := by
  rw [val_main_v17_apply]
  unfold FW
  refine Finset.sum_congr rfl fun f _ => ?_
  refine congrArg₂ (· * ·) (congrArg x1 (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

/-- The doubly scaled, symmetrised, self-looped matrix at (i, j). -/
theorem v16_apply (x0 : S8192x8192.Idx → EReal) (i j : Fin 8192) :
    val_main_v16 (F := Ideal) x0 (ix2 i j)
      = (S x0 i * ((x0 (ix2 i j) + x0 (ix2 j i)) + ((if i = j then 1 else 0 : ℝ) : EReal))) * S x0 j := by
  rw [val_main_v16_apply, val_main_v13_apply, val_main_v12_apply, val_main_v11_apply, val_main_v15_apply, val_main_v14_apply,
    val_main_v10_apply, val_main_v3_apply, val_main_v2_apply, val_main_v9_apply, val_main_v8_apply, val_main_v7_apply,
    val_main_v4_apply, val_main_v5_apply, val_main_v6_apply, val_main_c_apply]
  have e1 : idx_main_v11 (idx_main_v12 (ix2 i j)) = ix1 i := funext fun a => Fin.ext (by match a with | ⟨0, _⟩ => rfl)
  have e2 : idx_main_v14 (idx_main_v15 (ix2 i j)) = ix1 j := funext fun a => Fin.ext (by match a with | ⟨0, _⟩ => rfl)
  have e3 : idx_main_v2 (ix2 i j) = ix2 j i := funext fun a => Fin.ext (by match a with | ⟨0, _⟩ => rfl | ⟨1, _⟩ => rfl)
  rw [e1, e2, e3, v1_apply, v1_apply]
  show (S x0 i * ((x0 (ix2 i j) + x0 (ix2 j i)) + (((IntOp.cmpi .eq (IntOp.addi (BitVec.ofNat 32 i.val) 0#32) (BitVec.ofNat 32 j.val)).toNat : ℝ) : EReal))) * S x0 j = _
  rw [eye_word]
  congr 3
  split_ifs <;> simp

/-- The reference's result at (i, c). -/
theorem result_apply (x0 : S8192x8192.Idx → EReal) (x1 : S8192x256.Idx → EReal) (x2 : S256x128.Idx → EReal) (x3 : S128.Idx → EReal)
    (i : Fin 8192) (cc : Fin 128) :
    val_main_v21 (F := Ideal) x0 x1 x2 x3 (ix2 i cc)
      = (∑ j : Fin 8192, ((S x0 i * ((x0 (ix2 i j) + x0 (ix2 j i)) + ((if i = j then 1 else 0 : ℝ) : EReal))) * S x0 j) * FW x1 x2 j cc)
        + x3 (ix1 cc) := by
  rw [val_main_v21_apply, val_main_v18_apply, val_main_v20_apply, val_main_v19_apply]
  show (∑ k : Fin 8192, _) + _ = _
  have e4 : idx_main_v19 (idx_main_v20 (ix2 i cc)) = ix1 cc := funext fun a => Fin.ext (by match a with | ⟨0, _⟩ => rfl)
  rw [e4]
  refine congrArg (· + x3 (ix1 cc)) (Finset.sum_congr rfl fun k _ => ?_)
  have e5 : lidx_main_v18 (ix2 i cc) k = ix2 i k := funext fun a => Fin.ext (by match a with | ⟨0, _⟩ => rfl | ⟨1, _⟩ => rfl)
  have e6 : ridx_main_v18 (ix2 i cc) k = ix2 k cc := funext fun a => Fin.ext (by match a with | ⟨0, _⟩ => rfl | ⟨1, _⟩ => rfl)
  rw [e5, e6, v16_apply, v17_apply]

end Cert.ReferenceIdeal.RefValue

end
-- ==== Proof.LibGraphConv.lean ====
/-
  The algebra of a symmetrised, self-looped, two-sided scaled aggregation, on the extended reals.

  For real numbers a(i,j), s(j), w(j) over a finite index set, read in the extended reals:

      s(i) · ( Σ_j a(i,j)·(s(j)·w(j)) + Σ_j a(j,i)·(s(j)·w(j)) + s(i)·w(i) )
        = Σ_j ( (s(i) · ((a(i,j) + a(j,i)) + [i = j])) · s(j) ) · w(j).

  The left side scales the features first and aggregates the matrix and its transpose separately, adding the self
  term at the end; the right side builds the symmetrised matrix with the identity added, scales it on both sides, and
  aggregates once. The two agree by distributivity, which on the extended reals needs every factor to be a real number
  (it fails at the infinities); hence the statement over real numbers read in the extended reals.
-/
import Mathlib.Data.EReal.Basic
import Mathlib.Data.EReal.Operations
import Mathlib.Algebra.BigOperators.Ring.Finset
import Mathlib.Tactic.Ring

namespace Cert.GraphConv

open scoped BigOperators

/-- A finite sum of real numbers, read in the extended reals, is the sum of their readings. -/
theorem coe_sum {ι : Type*} (t : Finset ι) (f : ι → ℝ) : ((∑ i ∈ t, f i : ℝ) : EReal) = ∑ i ∈ t, (f i : EReal) := by
  classical
  induction t using Finset.induction_on with
  | empty => simp
  | insert x t hx ih => rw [Finset.sum_insert hx, Finset.sum_insert hx, EReal.coe_add, ih]

/-- The identity over the real numbers. -/
theorem aggregate_real {ι : Type*} [Fintype ι] [DecidableEq ι] (a : ι → ι → ℝ) (s w : ι → ℝ) (i : ι) :
    s i * ((∑ j, a i j * (s j * w j)) + (∑ j, a j i * (s j * w j)) + s i * w i)
      = ∑ j, ((s i * ((a i j + a j i) + (if i = j then 1 else 0))) * s j) * w j := by
  have h : ∀ j, ((s i * ((a i j + a j i) + (if i = j then (1 : ℝ) else 0))) * s j) * w j
      = s i * (a i j * (s j * w j)) + s i * (a j i * (s j * w j)) + (if i = j then s i * (s j * w j) else 0) := by
    intro j; split_ifs <;> ring
  simp only [h, Finset.sum_add_distrib, Finset.sum_ite_eq, Finset.mem_univ, if_true, ← Finset.mul_sum]
  ring

/-- The identity between extended reals that are readings of real numbers. -/
theorem aggregate_coe {ι : Type*} [Fintype ι] [DecidableEq ι] (a : ι → ι → ℝ) (s w : ι → ℝ) (i : ι) :
    (s i : EReal) * ((∑ j, (a i j : EReal) * ((s j : EReal) * (w j : EReal))) + (∑ j, (a j i : EReal) * ((s j : EReal) * (w j : EReal)))
        + (s i : EReal) * (w i : EReal))
      = ∑ j, (((s i : EReal) * (((a i j : EReal) + (a j i : EReal)) + ((if i = j then 1 else 0 : ℝ) : EReal))) * (s j : EReal)) * (w j : EReal) := by
  simp only [← EReal.coe_mul, ← EReal.coe_add, ← coe_sum]
  exact congrArg _ (aggregate_real a s w i)

end Cert.GraphConv
-- ==== Proof.Bridge.lean ====
/-
  The kernel's result and the reference's result are the same extended reals, index by index, on arguments that satisfy
  the precondition. With s(j) the square root of column j's sum of the adjacency matrix and FW the feature transform,

      kernel    (i, c) = s(i) · ( Σ_j adj(i,j)·(s(j)·FW(j,c)) + Σ_j adj(j,i)·(s(j)·FW(j,c)) + s(i)·FW(i,c) ) + bias(c)
      reference (i, c) = Σ_j ( (s(i)·((adj(i,j) + adj(j,i)) + [i = j])) · s(j) ) · FW(j,c) + bias(c).

  The precondition makes every entry of the arguments a real number and every column sum nonnegative, so every s(j) is
  a real number (the real square root) and every FW(j, c) is a real number; the two sides then agree by distributivity.
-/
import proofs.«176108_j55224689492023_2_alg».proof.Proof.KernelIdeal_Chain
import proofs.«176108_j55224689492023_2_alg».proof.Proof.KernelIdeal_Ideal0
import proofs.«176108_j55224689492023_2_alg».proof.Proof.KernelIdeal_Ideal1
import proofs.«176108_j55224689492023_2_alg».proof.Proof.KernelIdeal_Ideal2
import proofs.«176108_j55224689492023_2_alg».proof.Proof.RefValue
import proofs.«176108_j55224689492023_2_alg».proof.Proof.LibGraphConv
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.ReferenceIdeal.RefValue (S FW)
open Cert.GraphConv Cert.BlockSum

variable (m : (ℓ : Loc nD τ sig) → Buf (Elt Ideal) ℓ)

/-- The four argument arrays on core `c`, as functions of their indices. -/
abbrev argA (c : Dev nD) : S8192x8192.Idx → EReal := m ((c : Thread nD τ).loc main_arg0)
abbrev argX (c : Dev nD) : S8192x256.Idx → EReal := m ((c : Thread nD τ).loc main_arg1)
abbrev argW (c : Dev nD) : S256x128.Idx → EReal := m ((c : Thread nD τ).loc main_arg2)
abbrev argB (c : Dev nD) : S128.Idx → EReal := m ((c : Thread nD τ).loc main_arg3)

/-- The scale column the second and third regions read: entry (j, 0) is s(j). -/
theorem scol_apply (c : Dev nD) (j : Fin 8192) :
    transpose S8192x1 [1, 0] (G0 (V0r m) c) transposes_S1x8192_S8192x1_1_0 (ix2 j (0 : Fin 1)) = S (argA m c) j := by
  refine (transpose_ix2_apply (a := 1) (b := 8192) (G0 (V0r m) c : S1x8192.Idx → EReal) transposes_S1x8192_S8192x1_1_0 j (0 : Fin 1)).trans ?_
  rw [G0_apply, V0r_arg0]
  rfl

/-- The kernel's result at (i, c), in the arguments. -/
theorem kernel_apply (c : Dev nD) (i : Fin 8192) (cc : Fin 128) :
    G2 (V4r m) c (ix2 i cc)
      = S (argA m c) i
          * (((∑ j : Fin 8192, argA m c (ix2 i j) * (S (argA m c) j * FW (argX m c) (argW m c) j cc))
              + ∑ j : Fin 8192, argA m c (ix2 j i) * (S (argA m c) j * FW (argX m c) (argW m c) j cc))
            + S (argA m c) i * FW (argX m c) (argW m c) i cc)
        + argB m c (ix1 cc) := by
  have hs : ∀ j : Fin 8192, asFn S8192x1 (V4r m c main_v1) (ix2 j (0 : Fin 1)) = S (argA m c) j := by
    intro j
    rw [V4r_v1]
    exact scol_apply m c j
  have hs2 : ∀ j : Fin 8192, asFn S8192x1 (V2r m c main_v1) (ix2 j (0 : Fin 1)) = S (argA m c) j := by
    intro j
    rw [V2r_v1]
    exact scol_apply m c j
  have hf : ∀ j : Fin 8192, asFn S8192x128 (V4r m c main_v2) (ix2 j cc) = S (argA m c) j * FW (argX m c) (argW m c) j cc := by
    intro j
    rw [V4r_v2]
    show G1 (V2r m) c (ix2 j cc) = _
    rw [G1_apply, hs2, V2r_arg1, V2r_arg2]
    rfl
  have hb : asFn S1x128 (V4r m c main_v3) (ix2 (0 : Fin 1) cc) = argB m c (ix1 cc) := by
    rw [V4r_v3]
    exact shapeCast_a_1a_apply (argB m c) shapeCasts_S128_S1x128 (0 : Fin 1) cc
  rw [G2_apply, hs, hb, V4r_arg0]
  simp only [hf]

/-- The two results agree on arguments whose entries are real numbers and whose adjacency columns have nonnegative sums. -/
theorem value_eq (A : S8192x8192.Idx → EReal) (X : S8192x256.Idx → EReal) (Wt : S256x128.Idx → EReal) (Bv : S128.Idx → EReal)
    (hA : ∀ i, ∃ r : ℝ, A i = (r : EReal)) (hX : ∀ i, ∃ r : ℝ, X i = (r : EReal)) (hW : ∀ i, ∃ r : ℝ, Wt i = (r : EReal))
    (hcol : ∀ j : Fin 8192, 0 ≤ ∑ i : Fin 8192, A (ix2 i j)) (i : Fin 8192) (cc : Fin 128) :
    S A i * (((∑ j : Fin 8192, A (ix2 i j) * (S A j * FW X Wt j cc)) + ∑ j : Fin 8192, A (ix2 j i) * (S A j * FW X Wt j cc))
        + S A i * FW X Wt i cc) + Bv (ix1 cc)
      = (∑ j : Fin 8192, ((S A i * ((A (ix2 i j) + A (ix2 j i)) + ((if i = j then 1 else 0 : ℝ) : EReal))) * S A j) * FW X Wt j cc)
        + Bv (ix1 cc) := by
  choose a ha using hA
  choose x hx using hX
  choose w hw using hW
  have hS : ∀ j, S A j = ((Real.sqrt (∑ i : Fin 8192, a (ix2 i j)) : ℝ) : EReal) := by
    intro j
    unfold Cert.ReferenceIdeal.RefValue.S
    have e : (∑ i : Fin 8192, A (ix2 i j)) = ((∑ i : Fin 8192, a (ix2 i j) : ℝ) : EReal) := by
      rw [coe_sum]; exact Finset.sum_congr rfl fun i _ => ha _
    have h0 := hcol j
    rw [e] at h0 ⊢
    rw [Ideal.sqrt_coe, if_neg (not_lt.mpr (EReal.coe_nonneg.mp h0))]
  have hFW : ∀ j, FW X Wt j cc = ((∑ f : Fin 256, x (ix2 j f) * w (ix2 f cc) : ℝ) : EReal) := by
    intro j
    unfold Cert.ReferenceIdeal.RefValue.FW
    rw [coe_sum]
    exact Finset.sum_congr rfl fun f _ => by rw [hx, hw, EReal.coe_mul]
  simp only [hS, hFW, ha]
  exact congrArg (· + Bv (ix1 cc))
    (aggregate_coe (fun i j => a (ix2 i j)) (fun j => Real.sqrt (∑ i : Fin 8192, a (ix2 i j)))
      (fun j => ∑ f : Fin 256, x (ix2 j f) * w (ix2 f cc)) i)

end Cert.KernelIdeal.Hand

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.PreFacts.lean ====
/-
  What the precondition says of the argument arrays, over the extended reals: every entry of the four arrays is a real
  number, and every column of the adjacency matrix has a nonnegative sum (so the reference's square root of that sum is
  the real square root, not the junk value it takes on a negative number).
-/
import proofs.«176108_j55224689492023_2_alg».proof.Pre_finite_inputs
import proofs.«176108_j55224689492023_2_alg».proof.Proof.LibFiniteEntry
import Idealize.ShloMosaic.Lib.ReduceAll
import Idealize.ShloMosaic.Lib.ValueIdx
import Idealize.ShloMosaic.PureOps.Ideal.Laws

set_option maxRecDepth 16384

noncomputable section

namespace Cert.Pre_finite_inputs.Decode

open Cert.Pre_finite_inputs Idealize.ShloMosaic Idealize.ShloMosaic.ValueIdx Cert.FiniteEntry

variable [Cert.Pre_finite_inputs.Facts]
open Cert.Pre_finite_inputs.Facts

/-- An entry of an array whose "all entries finite" test came out true is a real number. -/
theorem real_of_all {s : Shape} (x : FVec Ideal s .f32) (bc : S_.BroadcastsInDim s (![] : Fin 0 → Fin s.rank)) {axes : List (Fin s.rank)}
    (hr : s.ReducesTo axes S_)
    (e : Host.reduce IntOp.andi (cmpf .olt (Host.absf x) (broadcastInDim s ![] bc (constant S_ .f32 0x7F800000#32))) (constantI S_ 1 1#1) hr h_S_ ix0 = 1#1)
    (i : s.Idx) : ∃ r : ℝ, x i = (r : EReal) :=
  real_of_abs_lt_top (x i) (Host.reduce_andi_all _ _ hr h_S_ ix0 e i)

theorem decode (x0 : FVec Ideal S8192x8192 .f32) (x1 : FVec Ideal S8192x256 .f32) (x2 : FVec Ideal S256x128 .f32) (x3 : FVec Ideal S128 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ j : Fin 8192, 0 ≤ ∑ i : Fin 8192, x0 (ix2 i j)) := by
  have h0 := congrFun h ix0
  unfold fn fn_part1 at h0
  dsimp only at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨real_of_all x0 _ _ h3, real_of_all x1 _ _ h7, real_of_all x2 _ _ h12, real_of_all x3 _ _ h17, fun j => ?_⟩
  have hj := Host.reduce_andi_all _ _ reducesTo_S8192_S_d0 h_S_ ix0 h22 (ix1 j)
  have hsum : Host.reduceAdd x0 (constant S_ .f32 0x00000000#32) reducesTo_S8192x8192_S8192_d0 h_S_ (ix1 j)
      = ∑ i : Fin 8192, x0 (ix2 i j) := by
    simp only [Host.reduceAdd, Ideal.hostReduceAdd_def]
    rw [Ideal.hostReduceAdd_single reducesTo_S8192x8192_S8192_d0 (by decide)]
    show Ideal.ofBits .f32 0x00000000#32 + _ = _
    rw [Ideal.ofBits_zero_f32, zero_add]
    refine Finset.sum_congr rfl fun k _ => congrArg x0 (funext fun a => Fin.ext ?_)
    match a with
    | ⟨0, _⟩ => rfl
    | ⟨1, _⟩ => rfl
  have hj' : FloatOps.cmpf (F := Ideal) (φ := .f32) .oge (Host.reduceAdd x0 (constant S_ .f32 0x00000000#32) reducesTo_S8192x8192_S8192_d0 h_S_ (ix1 j))
      (FloatOps.ofBits (F := Ideal) .f32 0x00000000#32) = 1#1 := hj
  rw [hsum, Ideal.cmpf_def, Ideal.ofBits_def, Ideal.ofBits_zero_f32] at hj'
  by_contra hn
  simp [Ideal.cmp, hn] at hj'

end Cert.Pre_finite_inputs.Decode

end
-- ==== Proof.lean ====
/-
  The certificate: the kernel program (three kernel regions: the column scale s = sqrt of the adjacency matrix's column
  sums; the scaled feature transform s · (feature · weight); the aggregation of the adjacency matrix and of its
  transpose with the scaled features, the self term, the row scale and the bias) against the reference
  ((s · (adj + adjᵀ + I)) · s) · (feature · weight) + bias.

  * The three frames: each program terminates on every weakly fair execution, faults nowhere and leaves its arguments
    unchanged. For the kernel program, at both instances, this is the run of its three regions and two host steps; for
    the reference, its host operations' run.
  * The idealization rewrote nothing, so nothing is to be preserved.
  * The value claim, over the extended reals: under the precondition (every entry a real number, every adjacency column
    sum nonnegative) the two results are equal entry by entry, by distributivity over real numbers.
-/
import proofs.«176108_j55224689492023_2_alg».proof.Defs
import proofs.«176108_j55224689492023_2_alg».proof.Proof.Gen.Kernel
import proofs.«176108_j55224689492023_2_alg».proof.Proof.Gen.KernelIdeal
import proofs.«176108_j55224689492023_2_alg».proof.Proof.Gen.ReferenceIdeal
import proofs.«176108_j55224689492023_2_alg».proof.Proof.Gen.Pre_finite_inputs
import proofs.«176108_j55224689492023_2_alg».proof.Proof.Gen.ReferenceIdeal.Run
import proofs.«176108_j55224689492023_2_alg».proof.Proof.Kernel_Args
import proofs.«176108_j55224689492023_2_alg».proof.Proof.KernelIdeal_Args
import proofs.«176108_j55224689492023_2_alg».proof.Proof.Bridge
import proofs.«176108_j55224689492023_2_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.G2 (Cert.KernelIdeal.Hand.V4r m) c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v4 (by decide))).trans (Cert.KernelIdeal.Hand.W5_result m c),
      (h c _ (Cert.KernelIdeal.Hand.mem_uc Cert.KernelIdeal.main_arg0 (by decide))).trans (Cert.KernelIdeal.Hand.W5_arg0 m c),
      (h c _ (Cert.KernelIdeal.Hand.mem_uc Cert.KernelIdeal.main_arg1 (by decide))).trans (Cert.KernelIdeal.Hand.W5_arg1 m c),
      (h c _ (Cert.KernelIdeal.Hand.mem_uc Cert.KernelIdeal.main_arg2 (by decide))).trans (Cert.KernelIdeal.Hand.W5_arg2 m c),
      (h c _ (Cert.KernelIdeal.Hand.mem_uc Cert.KernelIdeal.main_arg3 (by decide))).trans (Cert.KernelIdeal.Hand.W5_arg3 m c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v21_eq, (hagree c).1, (hagree c).2.1, (hagree c).2.2.1, (hagree c).2.2.2]
    obtain ⟨hA, hX, hW, -, hcol⟩ := Cert.Pre_finite_inputs.Decode.decode _ _ _ _ (hpre c)
    funext idx
    obtain ⟨i, cc, rfl⟩ : ∃ (i : Fin 8192) (cc : Fin 128), idx = ix2 i cc := ⟨idx 0, idx 1, eq_ix2 idx⟩
    rw [Cert.ReferenceIdeal.RefValue.result_apply]
    refine Eq.trans ?_ (Cert.KernelIdeal.Hand.kernel_apply m c i cc).symm
    exact (Cert.KernelIdeal.Hand.value_eq _ _ _ _ hA hX hW hcol i cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
